-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x2 : Shape := ⟨2, ![800000, 2]⟩
abbrev S256x128 : Shape := ⟨2, ![256, 128]⟩
abbrev S256x1 : Shape := ⟨2, ![256, 1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S50000x256 .f32) (main_arg1 : IVec S800000x2 32) (main_arg2 : FVec F S256x128 .f32) (main_arg3 : FVec F S256x1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S50000x256 : Shape := ⟨2, ![50000, 256]⟩
abbrev S800000x2 : Shape := ⟨2, ![800000, 2]⟩
abbrev S256x128 : Shape := ⟨2, ![256, 128]⟩
abbrev S256x1 : Shape := ⟨2, ![256, 1]⟩
abbrev S800000x1 : Shape := ⟨2, ![800000, 1]⟩
abbrev S800000 : Shape := ⟨1, ![800000]⟩
abbrev S2x128 : Shape := ⟨2, ![2, 128]⟩
abbrev S128x2 : Shape := ⟨2, ![128, 2]⟩
abbrev S50000x128 : Shape := ⟨2, ![50000, 128]⟩
abbrev S50000x2 : Shape := ⟨2, ![50000, 2]⟩
abbrev S5000x256 : Shape := ⟨2, ![5000, 256]⟩
abbrev S5000x128 : Shape := ⟨2, ![5000, 128]⟩
abbrev S5000x2 : Shape := ⟨2, ![5000, 2]⟩
abbrev S50000x1 : Shape := ⟨2, ![50000, 1]⟩
abbrev S50000 : Shape := ⟨1, ![50000]⟩
abbrev S_ : Shape := ⟨0, ![]⟩
abbrev S800000x128 : Shape := ⟨2, ![800000, 128]⟩

abbrev nBuf : Space → Nat
  | .hbm => 82
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S800000x2, .i32⟩
  | .hbm, ⟨2, _⟩ => ⟨S256x128, .f32⟩
  | .hbm, ⟨3, _⟩ => ⟨S256x1, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S2x128, .f32⟩
  | .hbm, ⟨9, _⟩ => ⟨S128x2, .f32⟩
  | .hbm, ⟨10, _⟩ => ⟨S50000x128, .f32⟩
  | .hbm, ⟨11, _⟩ => ⟨S50000x2, .f32⟩
  | .hbm, ⟨12, _⟩ => ⟨S50000x1, .f32⟩
  | .hbm, ⟨13, _⟩ => ⟨S50000, .f32⟩
  | .hbm, ⟨14, _⟩ => ⟨S50000x1, .f32⟩
  | .hbm, ⟨15, _⟩ => ⟨S50000, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S800000, .f32⟩
  | .hbm, ⟨35, _⟩ => ⟨S_, .f32⟩
  | .hbm, ⟨36, _⟩ => ⟨S_, .f32⟩
  | .hbm, ⟨37, _⟩ => ⟨S800000, .f32⟩
  | .hbm, ⟨38, _⟩ => ⟨S800000, .i1⟩
  | .hbm, ⟨39, _⟩ => ⟨S_, .f32⟩
  | .hbm, ⟨40, _⟩ => ⟨S800000, .f32⟩
  | .hbm, ⟨41, _⟩ => ⟨S800000, .f32⟩
  | .hbm, ⟨42, _⟩ => ⟨S800000, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S800000, .f32⟩
  | .hbm, ⟨47, _⟩ => ⟨S800000, .f32⟩
  | .hbm, ⟨48, _⟩ => ⟨S_, .f32⟩
  | .hbm, ⟨49, _⟩ => ⟨S800000, .f32⟩
  | .hbm, ⟨50, _⟩ => ⟨S800000, .f32⟩
  | .hbm, ⟨51, _⟩ => ⟨S800000, .f32⟩
  | .hbm, ⟨52, _⟩ => ⟨S_, .f32⟩
  | .hbm, ⟨53, _⟩ => ⟨S50000, .f32⟩
  | .hbm, ⟨54, _⟩ => ⟨S800000x1, .i32⟩
  | .hbm, ⟨55, _⟩ => ⟨S50000, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000, .f32⟩
  | .hbm, ⟨65, _⟩ => ⟨S800000, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S800000x1, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128x2, .f32⟩
  | .local _ .vmem, ⟨4, _⟩ => ⟨S5000x128, .f32⟩
  | .local _ .vmem, ⟨5, _⟩ => ⟨S5000x128, .f32⟩
  | .local _ .vmem, ⟨6, _⟩ => ⟨S5000x2, .f32⟩
  | .local _ .vmem, ⟨7, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v26 : Ref sig .tc := ⟨.hbm, 42, rfl⟩
abbrev main_cst_3 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  shapeCasts_S256x1_S2x128 : S256x1.ShapeCasts S2x128
  transposes_S2x128_S128x2_1_0 : S2x128.Transposes [1, 0] S128x2
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S5000x2_S5000x2_0_0 : ∀ a, (![0, 0] : Fin 2 → Nat) a + S5000x2.size a ≤ S5000x2.size a
  h_S5000x2 : 0 < S5000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S5000x256_S256x128_S5000x128_1_0_0_1_n_n_wf : DotDims.WF S5000x256 S256x128 S5000x128 [1] [0] [0] [1] [] []
  dot_S5000x128_S128x2_S5000x2_1_0_0_1_n_n_wf : DotDims.WF S5000x128 S128x2 S5000x2 [1] [0] [0] [1] [] []
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2.size a ≤ S128x2.size a
  hwx0_2 : ∀ i : grid0.Coords, EltTy.bits .f32 = 32 ∨ (Rect.block (s := S128x2) S128x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x2.size a ≤ S50000x2.size a
  hwx0_4 : ∀ i : grid0.Coords, EltTy.bits .f32 = 32 ∨ (Rect.block (s := S50000x2) S5000x2.size (cc0_transform_4 i) (hinb0_4 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S5000x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000x2 : Shape := ⟨2, ![800000, 2]⟩
abbrev S256x128 : Shape := ⟨2, ![256, 128]⟩
abbrev S256x1 : Shape := ⟨2, ![256, 1]⟩
abbrev S800000x1 : Shape := ⟨2, ![800000, 1]⟩
abbrev S800000 : Shape := ⟨1, ![800000]⟩
abbrev S50000x128 : Shape := ⟨2, ![50000, 128]⟩
abbrev S128x1 : Shape := ⟨2, ![128, 1]⟩
abbrev S50000x1 : Shape := ⟨2, ![50000, 1]⟩
abbrev S50000 : Shape := ⟨1, ![50000]⟩
abbrev S_ : Shape := ⟨0, ![]⟩
abbrev S800000x128 : Shape := ⟨2, ![800000, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x2, .i32⟩
  | .hbm, ⟨2, _⟩ => ⟨S256x128, .f32⟩
  | .hbm, ⟨3, _⟩ => ⟨S256x1, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S50000x128, .f32⟩
  | .hbm, ⟨9, _⟩ => ⟨S128x1, .f32⟩
  | .hbm, ⟨10, _⟩ => ⟨S50000x1, .f32⟩
  | .hbm, ⟨11, _⟩ => ⟨S50000, .f32⟩
  | .hbm, ⟨12, _⟩ => ⟨S128x1, .f32⟩
  | .hbm, ⟨13, _⟩ => ⟨S50000x1, .f32⟩
  | .hbm, ⟨14, _⟩ => ⟨S50000, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S800000, .f32⟩
  | .hbm, ⟨34, _⟩ => ⟨S_, .f32⟩
  | .hbm, ⟨35, _⟩ => ⟨S_, .f32⟩
  | .hbm, ⟨36, _⟩ => ⟨S800000, .f32⟩
  | .hbm, ⟨37, _⟩ => ⟨S800000, .i1⟩
  | .hbm, ⟨38, _⟩ => ⟨S_, .f32⟩
  | .hbm, ⟨39, _⟩ => ⟨S800000, .f32⟩
  | .hbm, ⟨40, _⟩ => ⟨S800000, .f32⟩
  | .hbm, ⟨41, _⟩ => ⟨S800000, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S800000, .f32⟩
  | .hbm, ⟨46, _⟩ => ⟨S800000, .f32⟩
  | .hbm, ⟨47, _⟩ => ⟨S_, .f32⟩
  | .hbm, ⟨48, _⟩ => ⟨S800000, .f32⟩
  | .hbm, ⟨49, _⟩ => ⟨S800000, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000, .f32⟩
  | .hbm, ⟨64, _⟩ => ⟨S800000, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S800000x1, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v26 : Ref sig .tc := ⟨.hbm, 41, rfl⟩
abbrev main_cst_3 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  slices_S256x1_S128x1_0_0 : S256x1.Slices ![0, 0] S128x1
  shapeCasts_S50000x1_S50000 : S50000x1.ShapeCasts S50000
  slices_S256x1_S128x1_128_0 : S256x1.Slices ![128, 0] S128x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.EntryK.lean ====
/-
  The host side of `Kernel`'s one pallas_call. @main is six host lines, the region, seventy host lines in five
  stretches (the attention scores' gathers, the leaky rectifier and the clip as the two functions jax outlined, the
  exponential, the two segment sums and the division between them). Here: the buffer contents the region is entered
  with (the launch contents after the six earlier lines), @main reduced to the region continued by the later lines,
  and the three facts the later lines owe the region: every buffer they touch is an unscoped TensorCore buffer,
  they allocate nothing, and none of them writes an array a window stages (each writes its own result buffer only).
  Last, that no host line writes an argument, so each argument array is found and left as launched.
-/
import proofs.«174853_j3221225472506_1_alg».proof.Proof.Gen.Kernel.Launch
import Idealize.ShloMosaic.Lib.Pipeline.FrameBody
import Idealize.ShloMosaic.Lib.Pipeline.FrameSuffix

set_option maxRecDepth 16384

noncomputable section

namespace Cert.Kernel.Entry

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's entry, and the later lines -/

/-- Core `c`'s buffer contents when the region is entered: the launch contents after the six earlier lines (the two
    columns of the edge list as vectors, the attention vector as a 128 × 2 matrix). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev later : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the earlier lines, the region, the later lines: it reduces to the region continued by the later lines,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact hostOps0_fresh) main_chain

/-- The later lines touch unscoped TensorCore buffers only; nothing being prefetched, each such buffer is an array of
    the pipeline or a buffer that bypasses it. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! Each host line writes its own result buffer, and no result buffer of a later line is one of the five arrays the
    windows stage (the node features, the projection matrix, the 128 × 2 attention matrix, and the kernel's two
    results): stretch by stretch, window by window. -/
theorem hostOps1_keeps (w : Fin 5) : (hostOps1 : List (HloOp τ sig (Elt F))).Forall fun op =>
    Proc.devRef .tc (Pipeline.arrRef spec0 w) ∉ op.writes := by
  fin_cases w <;>
    simp only [hostOps1, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)
theorem hostOps1_1_keeps (w : Fin 5) : (hostOps1_1 : List (HloOp τ sig (Elt F))).Forall fun op =>
    Proc.devRef .tc (Pipeline.arrRef spec0 w) ∉ op.writes := by
  fin_cases w <;>
    simp only [hostOps1_1, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)
theorem hostOps1_2_keeps (w : Fin 5) : (hostOps1_2 : List (HloOp τ sig (Elt F))).Forall fun op =>
    Proc.devRef .tc (Pipeline.arrRef spec0 w) ∉ op.writes := by
  fin_cases w <;>
    simp only [hostOps1_2, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)
theorem hostOps1_3_keeps (w : Fin 5) : (hostOps1_3 : List (HloOp τ sig (Elt F))).Forall fun op =>
    Proc.devRef .tc (Pipeline.arrRef spec0 w) ∉ op.writes := by
  fin_cases w <;>
    simp only [hostOps1_3, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)
theorem hostOps1_4_keeps (w : Fin 5) : (hostOps1_4 : List (HloOp τ sig (Elt F))).Forall fun op =>
    Proc.devRef .tc (Pipeline.arrRef spec0 w) ∉ op.writes := by
  fin_cases w <;>
    simp only [hostOps1_4, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)

/-- No later line writes an array of the pipeline. -/
theorem later_keeps : ∀ ops ∈ (later : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl | rfl
  · exact (List.forall_iff_forall_mem.mp (hostOps1_keeps w)) op hop
  · exact (List.forall_iff_forall_mem.mp (hostOps1_1_keeps w)) op hop
  · exact (List.forall_iff_forall_mem.mp (hostOps1_2_keeps w)) op hop
  · exact (List.forall_iff_forall_mem.mp (hostOps1_3_keeps w)) op hop
  · exact (List.forall_iff_forall_mem.mp (hostOps1_4_keeps w)) op hop

/-! ## The arguments are found, and left, as launched -/

/-- No earlier line writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No earlier line writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No earlier line writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No earlier line writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No later line writes the reference `r` when `r` is none of their result buffers, stretch by stretch. -/
theorem later_not_writes (r : Ref sig .tc)
    (h0 : (hostOps1 : List (HloOp τ sig (Elt F))).Forall fun op => Proc.devRef .tc r ∉ op.writes)
    (h1 : (hostOps1_1 : List (HloOp τ sig (Elt F))).Forall fun op => Proc.devRef .tc r ∉ op.writes)
    (h2 : (hostOps1_2 : List (HloOp τ sig (Elt F))).Forall fun op => Proc.devRef .tc r ∉ op.writes)
    (h3 : (hostOps1_3 : List (HloOp τ sig (Elt F))).Forall fun op => Proc.devRef .tc r ∉ op.writes)
    (h4 : (hostOps1_4 : List (HloOp τ sig (Elt F))).Forall fun op => Proc.devRef .tc r ∉ op.writes) :
    ∀ op ∈ (later : List (List (HloOp τ sig (Elt F)))).flatten, Proc.devRef .tc r ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop

/-- No later line writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) later c main_arg1 = m ((c : Thread nD τ).loc main_arg1) := by
  unfold Pipeline.afterTail₀
  rw [StableHlo.after_of_forall_not_mem (b := Proc.devRef .tc main_arg1) _ _ (later_not_writes main_arg1
      (by simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide))),
    Pipeline.withArrays_of_ne _ c (V0 m c) _ main_arg1 (by exact (by decide : ∀ w, Pipeline.arrRef spec0 w ≠ main_arg1))]
  exact V_main_arg1 m c

/-- No later line writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) later c main_arg3 = m ((c : Thread nD τ).loc main_arg3) := by
  unfold Pipeline.afterTail₀
  rw [StableHlo.after_of_forall_not_mem (b := Proc.devRef .tc main_arg3) _ _ (later_not_writes main_arg3
      (by simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the entry contents, a run ending with every array of the pipeline at what the
    proof data computes and every other unscoped buffer as the later lines leave it has every argument array as
    launched: the two staged ones are inputs, never written back; the other two no line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).2 main_arg3 (Pipeline.mem_restRefs_of main_arg3 (by decide) (by decide))).trans (W_main_arg3 m dats c)⟩) h

end Cert.Kernel.Entry

end
-- ==== Proof.BodyK.lean ====
/-
  The kernel body of `Kernel`'s pallas_call on whole staging buffers. At a grid point the body reads a 5000 × 256
  block `x` of node features, the 256 × 128 projection `w` and the 128 × 2 attention matrix `a`, and stores
  `x · w` (5000 × 128) whole into its first result buffer and `(x · w) · a` (5000 × 2) whole into its second; it also
  loads both result buffers before storing into them and drops what it loaded. So each result buffer ends as the
  canon of ONE whole-block store, and the inputs' buffers are left as found.
-/
import proofs.«174853_j3221225472506_1_alg».proof.Proof.Gen.Kernel.Launch
import proofs.«174853_j3221225472506_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole buffer -/

abbrev rx : Rect S5000x256 := Rect.unit (s := S5000x256) ![0, 0] S5000x256.size inb_S5000x256_S5000x256_0_0
abbrev rw' : Rect S256x128 := Rect.unit (s := S256x128) ![0, 0] S256x128.size inb_S256x128_S256x128_0_0
abbrev ra : Rect S128x2 := Rect.unit (s := S128x2) ![0, 0] S128x2.size inb_S128x2_S128x2_0_0
abbrev rh : Rect S5000x128 := Rect.unit (s := S5000x128) ![0, 0] S5000x128.size inb_S5000x128_S5000x128_0_0
abbrev rs : Rect S5000x2 := Rect.unit (s := S5000x2) ![0, 0] S5000x2.size inb_S5000x2_S5000x2_0_0

/-! ## What the body leaves in each result buffer -/

/-- The first result buffer after the body: its one store, the projected block, over the loaded inputs. -/
def projOut (x : Vec F S5000x256 .f32) (w : Vec F S256x128 .f32) : Vec F S5000x128 .f32 :=
  View.canon [⟨rh, k0_pay1 (View.ld x rx) (View.ld w rw')⟩]

/-- The second result buffer after the body: its one store, the projected block times the attention matrix. -/
def scoreOut (x : Vec F S5000x256 .f32) (w : Vec F S256x128 .f32) (a : Vec F S128x2 .f32) : Vec F S5000x2 .f32 :=
  View.canon [⟨rs, k0_pay2 (View.ld x rx) (View.ld w rw') (View.ld a ra)⟩]

/-- The one store covers the first result buffer. -/
theorem cover_proj (p0 : Vec F S5000x128 .f32) (y : S5000x128.Idx) :
    ∃ pc ∈ ([⟨rh, p0⟩] : List (View.Piece (Elt F) S5000x128 .f32)), y ∈ pc.1.set :=
  View.cover_of_tiled [⟨rh, p0⟩] S5000x128.size (by rfl) y

/-- The one store covers the second result buffer. -/
theorem cover_score (p0 : Vec F S5000x2 .f32) (y : S5000x2.Idx) :
    ∃ pc ∈ ([⟨rs, p0⟩] : List (View.Piece (Elt F) S5000x2 .f32)), y ∈ pc.1.set :=
  View.cover_of_tiled [⟨rs, p0⟩] S5000x2.size (by rfl) y

/-! ## The body's triple -/

set_option maxHeartbeats 1000000 in
/-- On whole staging buffers, the three inputs' at contents `x`, `w`, `a` and the two results' at anything, the body
    runs to its continuation holding the inputs' as they were and the results' at `projOut` and `scoreOut` of them. -/
theorem sound_kernel (c : Dev nD) (E : Set ℕ) (i : grid0.Coords)
    (arg1 : Memref sig .tc .vmem S5000x256 .f32) (harg1 : arg1.IsWhole) (arg2 : Memref sig .tc .vmem S256x128 .f32) (harg2 : arg2.IsWhole)
    (arg3 : Memref sig .tc .vmem S128x2 .f32) (harg3 : arg3.IsWhole) (arg4 : Memref sig .tc .vmem S5000x128 .f32) (harg4 : arg4.IsWhole)
    (arg5 : Memref sig .tc .vmem S5000x2 .f32) (harg5 : arg5.IsWhole)
    (x : Vec F S5000x256 .f32) (w : Vec F S256x128 .f32) (a : Vec F S128x2 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (projOut x w) ∗ owns (c : Thread nD τ) arg5 fullShare (scoreOut x w a)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_proj _)
  iexists _; isplitr
  swap; · iexact H4
  ipureintro
  exact View.read_writes_eq_canon _ _ _ (cover_score _)

end Cert.Kernel.Body

end
-- ==== Proof.RegionK.lean ====
/-
  The run of `Kernel`'s @main around its one pallas_call. The proof data says what each window's staging buffer
  holds after the body at each of the ten grid points: an input's buffer its block of the array, the first result's
  buffer the projected block, the second's the projected block times the attention matrix. The body meets it at every
  point (the inputs' buffers hold their blocks whether or not the point fetched them), so every weakly fair execution
  of @main terminates with each array of the pipeline at what the proof data computes and every other unscoped buffer
  as the seventy later lines leave it; in particular the four argument arrays end as launched.
-/
import proofs.«174853_j3221225472506_1_alg».proof.Proof.Gen.Kernel.Points
import proofs.«174853_j3221225472506_1_alg».proof.Proof.EntryK
import proofs.«174853_j3221225472506_1_alg».proof.Proof.BodyK

set_option maxRecDepth 16384

noncomputable section

namespace Cert.Kernel.Region

open Cert.Kernel Cert.Kernel.Gen Cert.Kernel.Entry Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block,
    the first result's at the projected block, the second's at its product with the attention matrix; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projOut (iblk m c 0 t) (iblk m c 1 t)
    | ⟨4, _⟩ => scoreOut (iblk m c 0 t) (iblk m c 1 t) (iblk m c 2 t)
  Φ _ := Pipeline.ΦA spec0 c
  q _ := fullShare
  owed _ := 0

/-- The proof data's arrays are the entry contents (the definition projected, the entry contents never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = projOut (iblk m c 0 t) (iblk m c 1 t) := by dsimp only [dats]
theorem after0_4 (c : Dev nD) (t : Fin cfg0.N) :
    (dats m 0 c).after 4 t = scoreOut (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the later lines
    leave it. -/
theorem run_main : θ_run defs (onTc (τ := τ) (main (F := F))) (s₀ m ρ)
    (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-- The frame: @main runs to the end, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Region

end
-- ==== Proof.EntryKI.lean ====
/-
  The host side of `KernelIdeal`'s one pallas_call. @main is six host lines, the region, seventy host lines in five
  stretches (the attention scores' gathers, the leaky rectifier and the clip as the two functions jax outlined, the
  exponential, the two segment sums and the division between them). Here: the buffer contents the region is entered
  with (the launch contents after the six earlier lines), @main reduced to the region continued by the later lines,
  and the three facts the later lines owe the region: every buffer they touch is an unscoped TensorCore buffer,
  they allocate nothing, and none of them writes an array a window stages (each writes its own result buffer only).
  Last, that no host line writes an argument, so each argument array is found and left as launched.
-/
import proofs.«174853_j3221225472506_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Entry

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's entry, and the later lines -/

/-- Core `c`'s buffer contents when the region is entered: the launch contents after the six earlier lines (the two
    columns of the edge list as vectors, the attention vector as a 128 × 2 matrix). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev later : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the earlier lines, the region, the later lines: it reduces to the region continued by the later lines,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact hostOps0_fresh) main_chain

/-- The later lines touch unscoped TensorCore buffers only; nothing being prefetched, each such buffer is an array of
    the pipeline or a buffer that bypasses it. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! Each host line writes its own result buffer, and no result buffer of a later line is one of the five arrays the
    windows stage (the node features, the projection matrix, the 128 × 2 attention matrix, and the kernel's two
    results): stretch by stretch, window by window. -/
theorem hostOps1_keeps (w : Fin 5) : (hostOps1 : List (HloOp τ sig (Elt F))).Forall fun op =>
    Proc.devRef .tc (Pipeline.arrRef spec0 w) ∉ op.writes := by
  fin_cases w <;>
    simp only [hostOps1, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)
theorem hostOps1_1_keeps (w : Fin 5) : (hostOps1_1 : List (HloOp τ sig (Elt F))).Forall fun op =>
    Proc.devRef .tc (Pipeline.arrRef spec0 w) ∉ op.writes := by
  fin_cases w <;>
    simp only [hostOps1_1, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)
theorem hostOps1_2_keeps (w : Fin 5) : (hostOps1_2 : List (HloOp τ sig (Elt F))).Forall fun op =>
    Proc.devRef .tc (Pipeline.arrRef spec0 w) ∉ op.writes := by
  fin_cases w <;>
    simp only [hostOps1_2, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)
theorem hostOps1_3_keeps (w : Fin 5) : (hostOps1_3 : List (HloOp τ sig (Elt F))).Forall fun op =>
    Proc.devRef .tc (Pipeline.arrRef spec0 w) ∉ op.writes := by
  fin_cases w <;>
    simp only [hostOps1_3, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)
theorem hostOps1_4_keeps (w : Fin 5) : (hostOps1_4 : List (HloOp τ sig (Elt F))).Forall fun op =>
    Proc.devRef .tc (Pipeline.arrRef spec0 w) ∉ op.writes := by
  fin_cases w <;>
    simp only [hostOps1_4, List.Forall, StableHlo.nullary_writes, StableHlo.unary_writes, StableHlo.binary_writes, StableHlo.ternary_writes, StableHlo.reshape_writes, Finset.mem_singleton] <;>
    (repeat' apply And.intro) <;> exact StableHlo.devRef_ne_of_ne (by decide)

/-- No later line writes an array of the pipeline. -/
theorem later_keeps : ∀ ops ∈ (later : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl | rfl
  · exact (List.forall_iff_forall_mem.mp (hostOps1_keeps w)) op hop
  · exact (List.forall_iff_forall_mem.mp (hostOps1_1_keeps w)) op hop
  · exact (List.forall_iff_forall_mem.mp (hostOps1_2_keeps w)) op hop
  · exact (List.forall_iff_forall_mem.mp (hostOps1_3_keeps w)) op hop
  · exact (List.forall_iff_forall_mem.mp (hostOps1_4_keeps w)) op hop

/-! ## The arguments are found, and left, as launched -/

/-- No earlier line writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No earlier line writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No earlier line writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No earlier line writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No later line writes the reference `r` when `r` is none of their result buffers, stretch by stretch. -/
theorem later_not_writes (r : Ref sig .tc)
    (h0 : (hostOps1 : List (HloOp τ sig (Elt F))).Forall fun op => Proc.devRef .tc r ∉ op.writes)
    (h1 : (hostOps1_1 : List (HloOp τ sig (Elt F))).Forall fun op => Proc.devRef .tc r ∉ op.writes)
    (h2 : (hostOps1_2 : List (HloOp τ sig (Elt F))).Forall fun op => Proc.devRef .tc r ∉ op.writes)
    (h3 : (hostOps1_3 : List (HloOp τ sig (Elt F))).Forall fun op => Proc.devRef .tc r ∉ op.writes)
    (h4 : (hostOps1_4 : List (HloOp τ sig (Elt F))).Forall fun op => Proc.devRef .tc r ∉ op.writes) :
    ∀ op ∈ (later : List (List (HloOp τ sig (Elt F)))).flatten, Proc.devRef .tc r ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop

/-- No later line writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) later c main_arg1 = m ((c : Thread nD τ).loc main_arg1) := by
  unfold Pipeline.afterTail₀
  rw [StableHlo.after_of_forall_not_mem (b := Proc.devRef .tc main_arg1) _ _ (later_not_writes main_arg1
      (by simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide))),
    Pipeline.withArrays_of_ne _ c (V0 m c) _ main_arg1 (by exact (by decide : ∀ w, Pipeline.arrRef spec0 w ≠ main_arg1))]
  exact V_main_arg1 m c

/-- No later line writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) later c main_arg3 = m ((c : Thread nD τ).loc main_arg3) := by
  unfold Pipeline.afterTail₀
  rw [StableHlo.after_of_forall_not_mem (b := Proc.devRef .tc main_arg3) _ _ (later_not_writes main_arg3
      (by simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the entry contents, a run ending with every array of the pipeline at what the
    proof data computes and every other unscoped buffer as the later lines leave it has every argument array as
    launched: the two staged ones are inputs, never written back; the other two no line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).2 main_arg3 (Pipeline.mem_restRefs_of main_arg3 (by decide) (by decide))).trans (W_main_arg3 m dats c)⟩) h

end Cert.KernelIdeal.Entry

end
-- ==== Proof.BodyKI.lean ====
/-
  The kernel body of `KernelIdeal`'s pallas_call on whole staging buffers. At a grid point the body reads a 5000 × 256
  block `x` of node features, the 256 × 128 projection `w` and the 128 × 2 attention matrix `a`, and stores
  `x · w` (5000 × 128) whole into its first result buffer and `(x · w) · a` (5000 × 2) whole into its second; it also
  loads both result buffers before storing into them and drops what it loaded. So each result buffer ends as the
  canon of ONE whole-block store, and the inputs' buffers are left as found.
-/
import proofs.«174853_j3221225472506_1_alg».proof.Proof.Gen.KernelIdeal.Launch
import proofs.«174853_j3221225472506_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole buffer -/

abbrev rx : Rect S5000x256 := Rect.unit (s := S5000x256) ![0, 0] S5000x256.size inb_S5000x256_S5000x256_0_0
abbrev rw' : Rect S256x128 := Rect.unit (s := S256x128) ![0, 0] S256x128.size inb_S256x128_S256x128_0_0
abbrev ra : Rect S128x2 := Rect.unit (s := S128x2) ![0, 0] S128x2.size inb_S128x2_S128x2_0_0
abbrev rh : Rect S5000x128 := Rect.unit (s := S5000x128) ![0, 0] S5000x128.size inb_S5000x128_S5000x128_0_0
abbrev rs : Rect S5000x2 := Rect.unit (s := S5000x2) ![0, 0] S5000x2.size inb_S5000x2_S5000x2_0_0

/-! ## What the body leaves in each result buffer -/

/-- The first result buffer after the body: its one store, the projected block, over the loaded inputs. -/
def projOut (x : Vec F S5000x256 .f32) (w : Vec F S256x128 .f32) : Vec F S5000x128 .f32 :=
  View.canon [⟨rh, k0_pay1 (View.ld x rx) (View.ld w rw')⟩]

/-- The second result buffer after the body: its one store, the projected block times the attention matrix. -/
def scoreOut (x : Vec F S5000x256 .f32) (w : Vec F S256x128 .f32) (a : Vec F S128x2 .f32) : Vec F S5000x2 .f32 :=
  View.canon [⟨rs, k0_pay2 (View.ld x rx) (View.ld w rw') (View.ld a ra)⟩]

/-- The one store covers the first result buffer. -/
theorem cover_proj (p0 : Vec F S5000x128 .f32) (y : S5000x128.Idx) :
    ∃ pc ∈ ([⟨rh, p0⟩] : List (View.Piece (Elt F) S5000x128 .f32)), y ∈ pc.1.set :=
  View.cover_of_tiled [⟨rh, p0⟩] S5000x128.size (by rfl) y

/-- The one store covers the second result buffer. -/
theorem cover_score (p0 : Vec F S5000x2 .f32) (y : S5000x2.Idx) :
    ∃ pc ∈ ([⟨rs, p0⟩] : List (View.Piece (Elt F) S5000x2 .f32)), y ∈ pc.1.set :=
  View.cover_of_tiled [⟨rs, p0⟩] S5000x2.size (by rfl) y

/-! ## The body's triple -/

set_option maxHeartbeats 1000000 in
/-- On whole staging buffers, the three inputs' at contents `x`, `w`, `a` and the two results' at anything, the body
    runs to its continuation holding the inputs' as they were and the results' at `projOut` and `scoreOut` of them. -/
theorem sound_kernel (c : Dev nD) (E : Set ℕ) (i : grid0.Coords)
    (arg1 : Memref sig .tc .vmem S5000x256 .f32) (harg1 : arg1.IsWhole) (arg2 : Memref sig .tc .vmem S256x128 .f32) (harg2 : arg2.IsWhole)
    (arg3 : Memref sig .tc .vmem S128x2 .f32) (harg3 : arg3.IsWhole) (arg4 : Memref sig .tc .vmem S5000x128 .f32) (harg4 : arg4.IsWhole)
    (arg5 : Memref sig .tc .vmem S5000x2 .f32) (harg5 : arg5.IsWhole)
    (x : Vec F S5000x256 .f32) (w : Vec F S256x128 .f32) (a : Vec F S128x2 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (projOut x w) ∗ owns (c : Thread nD τ) arg5 fullShare (scoreOut x w a)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_proj _)
  iexists _; isplitr
  swap; · iexact H4
  ipureintro
  exact View.read_writes_eq_canon _ _ _ (cover_score _)

end Cert.KernelIdeal.Body

end
-- ==== Proof.RegionKI.lean ====
/-
  The run of `KernelIdeal`'s @main around its one pallas_call. The proof data says what each window's staging buffer
  holds after the body at each of the ten grid points: an input's buffer its block of the array, the first result's
  buffer the projected block, the second's the projected block times the attention matrix. The body meets it at every
  point (the inputs' buffers hold their blocks whether or not the point fetched them), so every weakly fair execution
  of @main terminates with each array of the pipeline at what the proof data computes and every other unscoped buffer
  as the seventy later lines leave it; in particular the four argument arrays end as launched.
-/
import proofs.«174853_j3221225472506_1_alg».proof.Proof.Gen.KernelIdeal.Points
import proofs.«174853_j3221225472506_1_alg».proof.Proof.EntryKI
import proofs.«174853_j3221225472506_1_alg».proof.Proof.BodyKI

set_option maxRecDepth 16384

noncomputable section

namespace Cert.KernelIdeal.Region

open Cert.KernelIdeal Cert.KernelIdeal.Gen Cert.KernelIdeal.Entry Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block,
    the first result's at the projected block, the second's at its product with the attention matrix; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projOut (iblk m c 0 t) (iblk m c 1 t)
    | ⟨4, _⟩ => scoreOut (iblk m c 0 t) (iblk m c 1 t) (iblk m c 2 t)
  Φ _ := Pipeline.ΦA spec0 c
  q _ := fullShare
  owed _ := 0

/-- The proof data's arrays are the entry contents (the definition projected, the entry contents never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = projOut (iblk m c 0 t) (iblk m c 1 t) := by dsimp only [dats]
theorem after0_4 (c : Dev nD) (t : Fin cfg0.N) :
    (dats m 0 c).after 4 t = scoreOut (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the later lines
    leave it. -/
theorem run_main : θ_run defs (onTc (τ := τ) (main (F := F))) (s₀ m ρ)
    (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-- The frame: @main runs to the end, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Region

end
-- ==== Proof.RefRun.lean ====
/-
  The reference's @main as ONE straight line of host operations, and its run. The reference computes the node
  projection `h = x · w` and the two attention scores `h · a[:128]`, `h · a[128:]` by three matrix products (eleven
  lines with the slices and reshapes around them), then the sixty-six lines it shares with the kernel's program: the
  scores gathered along the edges and added, the leaky rectifier and the clip (the two functions jax outlined, their
  lines listed here at the call sites over the calls' own buffers), the exponential, the segment sum of the weights,
  the division, the rows of `h` gathered and weighted, and the segment sum of the rows. Every weakly fair execution
  terminates with every buffer at the fold of these lines over the launch contents; no line writes an argument.
-/
import proofs.«174853_j3221225472506_1_alg».proof.Proof.Gen.ReferenceIdeal
import Idealize.ShloMosaic.Lib.StableHlo.Run

set_option maxRecDepth 16384

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The reference's own eleven lines: the edge list's two columns as vectors, `h`, and the two scores per node. -/
abbrev pre : List (HloOp τ sig (Elt F)) :=
  [ StableHlo.unary main_arg1 main_v0 ((extractStridedSlice S800000x1 ![0, 0] · slices_S800000x2_S800000x1_0_0) : (⟨S800000x2, .i32⟩ : BufTy).Contents (Elt F) → (⟨S800000x1, .i32⟩ : BufTy).Contents (Elt F)),
    StableHlo.reshape main_v0 main_v1 rfl shapeCasts_S800000x1_S800000,
    StableHlo.unary main_arg1 main_v2 ((extractStridedSlice S800000x1 ![0, 1] · slices_S800000x2_S800000x1_0_1) : (⟨S800000x2, .i32⟩ : BufTy).Contents (Elt F) → (⟨S800000x1, .i32⟩ : BufTy).Contents (Elt F)),
    StableHlo.reshape main_v2 main_v3 rfl shapeCasts_S800000x1_S800000,
    StableHlo.binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg3 main_v5 ((extractStridedSlice S128x1 ![0, 0] · slices_S256x1_S128x1_0_0) : (⟨S256x1, .f32⟩ : BufTy).Contents (Elt F) → (⟨S128x1, .f32⟩ : BufTy).Contents (Elt F)),
    StableHlo.binary main_v4 main_v5 main_v6 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.reshape main_v6 main_v7 rfl shapeCasts_S50000x1_S50000,
    StableHlo.unary main_arg3 main_v8 ((extractStridedSlice S128x1 ![128, 0] · slices_S256x1_S128x1_128_0) : (⟨S256x1, .f32⟩ : BufTy).Contents (Elt F) → (⟨S128x1, .f32⟩ : BufTy).Contents (Elt F)),
    StableHlo.binary main_v4 main_v8 main_v9 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.reshape main_v9 main_v10 rfl shapeCasts_S50000x1_S50000 ]

/-- The sixty-six lines the reference shares with the kernel's program. -/
abbrev shared : List (HloOp τ sig (Elt F)) :=
  [ StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v7 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_1 (constantI S_ 32 0#32),
    StableHlo.unary main_c_1 main_v18 (broadcastInDim S800000 ![] bcast_S_S800000 : (⟨S_, .i32⟩ : BufTy).Contents (Elt F) → (⟨S800000, .i32⟩ : BufTy).Contents (Elt F)),
    StableHlo.binary main_v3 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v20 (broadcastInDim S800000 ![] bcast_S_S800000 : (⟨S_, .i32⟩ : BufTy).Contents (Elt F) → (⟨S800000, .i32⟩ : BufTy).Contents (Elt F)),
    StableHlo.binary main_v3 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v17 main_v24 main_v25 (addf : (⟨S800000, .f32⟩ : BufTy).Contents (Elt F) → (⟨S800000, .f32⟩ : BufTy).Contents (Elt F) → (⟨S800000, .f32⟩ : BufTy).Contents (Elt F)),
    StableHlo.nullary main_cst (constant S_ .f32 0x3E4CCCCD#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S800000, .f32⟩) (broadcastInDim S800000 ![] bcast_S_S800000),
    StableHlo.TRef.binary (.of main_v25 : StableHlo.TRef sig ⟨S800000, .f32⟩) (.of main_call0_v0 : StableHlo.TRef sig ⟨S800000, .f32⟩) (.of main_call0_v1 : StableHlo.TRef sig ⟨S800000, .i1⟩) (cmpf .oge),
    StableHlo.TRef.unary (.of main_cst : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S800000, .f32⟩) (broadcastInDim S800000 ![] bcast_S_S800000),
    StableHlo.TRef.binary (.of main_call0_v3 : StableHlo.TRef sig ⟨S800000, .f32⟩) (.of main_v25 : StableHlo.TRef sig ⟨S800000, .f32⟩) (.of main_call0_v4 : StableHlo.TRef sig ⟨S800000, .f32⟩) mulf,
    StableHlo.TRef.ternary (.of main_call0_v1 : StableHlo.TRef sig ⟨S800000, .i1⟩) (.of main_v25 : StableHlo.TRef sig ⟨S800000, .f32⟩) (.of main_call0_v4 : StableHlo.TRef sig ⟨S800000, .f32⟩) (.of main_v26 : StableHlo.TRef sig ⟨S800000, .f32⟩) select,
    StableHlo.nullary main_cst_3 (constant S_ .f32 0xC0000000#32),
    StableHlo.nullary main_cst_4 (constant S_ .f32 0x40000000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S800000, .f32⟩) (broadcastInDim S800000 ![] bcast_S_S800000),
    StableHlo.TRef.binary (.of main_call1_v1 : StableHlo.TRef sig ⟨S800000, .f32⟩) (.of main_v26 : StableHlo.TRef sig ⟨S800000, .f32⟩) (.of main_call1_v2 : StableHlo.TRef sig ⟨S800000, .f32⟩) maximumf,
    StableHlo.TRef.unary (.of main_cst_4 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S800000, .f32⟩) (broadcastInDim S800000 ![] bcast_S_S800000),
    StableHlo.TRef.binary (.of main_call1_v4 : StableHlo.TRef sig ⟨S800000, .f32⟩) (.of main_call1_v2 : StableHlo.TRef sig ⟨S800000, .f32⟩) (.of main_v27 : StableHlo.TRef sig ⟨S800000, .f32⟩) minimumf,
    StableHlo.unary main_v27 main_v28 (Host.exp : (⟨S800000, .f32⟩ : BufTy).Contents (Elt F) → (⟨S800000, .f32⟩ : BufTy).Contents (Elt F)),
    StableHlo.nullary main_cst_5 (constant S_ .f32 0x00000000#32),
    StableHlo.unary main_cst_5 main_v29 (broadcastInDim S50000 ![] bcast_S_S50000 : (⟨S_, .f32⟩ : BufTy).Contents (Elt F) → (⟨S50000, .f32⟩ : BufTy).Contents (Elt F)),
    StableHlo.unary main_v1 main_v30 (broadcastInDim S800000x1 ![0] bcast_S800000_S800000x1_0 : (⟨S800000, .i32⟩ : BufTy).Contents (Elt F) → (⟨S800000x1, .i32⟩ : BufTy).Contents (Elt F)),
    StableHlo.ternary main_v29 main_v30 main_v28 main_v31 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_c_6 (constantI S_ 32 0#32),
    StableHlo.unary main_c_6 main_v32 (broadcastInDim S800000 ![] bcast_S_S800000 : (⟨S_, .i32⟩ : BufTy).Contents (Elt F) → (⟨S800000, .i32⟩ : BufTy).Contents (Elt F)),
    StableHlo.binary main_v1 main_v32 main_v33 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v34 (broadcastInDim S800000 ![] bcast_S_S800000 : (⟨S_, .i32⟩ : BufTy).Contents (Elt F) → (⟨S800000, .i32⟩ : BufTy).Contents (Elt F)),
    StableHlo.binary main_v1 main_v34 main_v35 (addi : (⟨S800000, .i32⟩ : BufTy).Contents (Elt F) → (⟨S800000, .i32⟩ : BufTy).Contents (Elt F) → (⟨S800000, .i32⟩ : BufTy).Contents (Elt F)),
    StableHlo.ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v36 main_v37 (broadcastInDim S800000x1 ![0] bcast_S800000_S800000x1_0 : (⟨S800000, .i32⟩ : BufTy).Contents (Elt F) → (⟨S800000x1, .i32⟩ : BufTy).Contents (Elt F)),
    StableHlo.binary main_v31 main_v37 main_v38 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v28 main_v38 main_v39 (Host.divf : (⟨S800000, .f32⟩ : BufTy).Contents (Elt F) → (⟨S800000, .f32⟩ : BufTy).Contents (Elt F) → (⟨S800000, .f32⟩ : BufTy).Contents (Elt F)),
    StableHlo.nullary main_c_8 (constantI S_ 32 0#32),
    StableHlo.unary main_c_8 main_v40 (broadcastInDim S800000 ![] bcast_S_S800000 : (⟨S_, .i32⟩ : BufTy).Contents (Elt F) → (⟨S800000, .i32⟩ : BufTy).Contents (Elt F)),
    StableHlo.binary main_v3 main_v40 main_v41 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v42 (broadcastInDim S800000 ![] bcast_S_S800000 : (⟨S_, .i32⟩ : BufTy).Contents (Elt F) → (⟨S800000, .i32⟩ : BufTy).Contents (Elt F)),
    StableHlo.binary main_v3 main_v42 main_v43 (addi : (⟨S800000, .i32⟩ : BufTy).Contents (Elt F) → (⟨S800000, .i32⟩ : BufTy).Contents (Elt F) → (⟨S800000, .i32⟩ : BufTy).Contents (Elt F)),
    StableHlo.ternary main_v41 main_v43 main_v3 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v44 main_v45 (broadcastInDim S800000x1 ![0] bcast_S800000_S800000x1_0 : (⟨S800000, .i32⟩ : BufTy).Contents (Elt F) → (⟨S800000x1, .i32⟩ : BufTy).Contents (Elt F)),
    StableHlo.binary main_v4 main_v45 main_v46 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v39 main_v47 (broadcastInDim S800000x1 ![0] bcast_S800000_S800000x1_0 : (⟨S800000, .f32⟩ : BufTy).Contents (Elt F) → (⟨S800000x1, .f32⟩ : BufTy).Contents (Elt F)),
    StableHlo.unary main_v47 main_v48 (broadcastInDim S800000x128 ![0, 1] bcast_S800000x1_S800000x128_0_1 : (⟨S800000x1, .f32⟩ : BufTy).Contents (Elt F) → (⟨S800000x128, .f32⟩ : BufTy).Contents (Elt F)),
    StableHlo.binary main_v46 main_v48 main_v49 (mulf : (⟨S800000x128, .f32⟩ : BufTy).Contents (Elt F) → (⟨S800000x128, .f32⟩ : BufTy).Contents (Elt F) → (⟨S800000x128, .f32⟩ : BufTy).Contents (Elt F)),
    StableHlo.nullary main_cst_10 (constant S_ .f32 0x00000000#32),
    StableHlo.unary main_cst_10 main_v50 (broadcastInDim S50000x128 ![] bcast_S_S50000x128 : (⟨S_, .f32⟩ : BufTy).Contents (Elt F) → (⟨S50000x128, .f32⟩ : BufTy).Contents (Elt F)),
    StableHlo.unary main_v1 main_v51 (broadcastInDim S800000x1 ![0] bcast_S800000_S800000x1_0 : (⟨S800000, .i32⟩ : BufTy).Contents (Elt F) → (⟨S800000x1, .i32⟩ : BufTy).Contents (Elt F)),
    StableHlo.ternary main_v50 main_v51 main_v49 main_v52 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- @main's seventy-seven lines, in order. -/
abbrev ops : List (HloOp τ sig (Elt F)) := pre ++ shared

-- seventy-seven binds re-associated: the rewrite under the chain recurses once per statement
set_option maxRecDepth 65536 in
set_option maxHeartbeats 4000000 in
/-- @main is that straight line: its two windows in order, the outlined functions' bodies at their calls and the
    call records at their fields. -/
theorem main_eq (c : Dev nD) : main (F := F) c = seq ops := by
  simp only [main, main_part0, main_part1, fn_leaky_relu.body, fn_clip.body, fn_where.body, ops, pre, shared, List.cons_append,
    List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem pre_sub : (pre : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., reshape_bufs_sub .., unary_bufs_sub .., binary_bufs_sub .., reshape_bufs_sub ..⟩
theorem shared_sub : (shared : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem ops_sub : (ops : List (HloOp τ sig (Elt F))).Forall fun op => op.bufs ⊆ tcRefs τ sig :=
  List.forall_iff_forall_mem.mpr fun op hop => (List.mem_append.mp hop).elim
    (fun h => (List.forall_iff_forall_mem.mp pre_sub) op h) (fun h => (List.forall_iff_forall_mem.mp shared_sub) op h)

/-- From any memory with zero counters every weakly fair execution of @main terminates, and every final state has each
    TensorCore buffer at the lines' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A reference that is no line's result buffer keeps its launch contents. -/
theorem kept (V : Valuation τ sig (Elt F)) (r : Ref sig .tc)
    (h₁ : (pre : List (HloOp τ sig (Elt F))).Forall fun op => Proc.devRef .tc r ∉ op.writes)
    (h₂ : (shared : List (HloOp τ sig (Elt F))).Forall fun op => Proc.devRef .tc r ∉ op.writes) :
    after ops V (Proc.devRef .tc r) = V (Proc.devRef .tc r) :=
  after_of_forall_not_mem _ _ fun op hop => (List.mem_append.mp hop).elim
    (fun h => (List.forall_iff_forall_mem.mp h₁) op h) (fun h => (List.forall_iff_forall_mem.mp h₂) op h)

/-- No line writes `main_arg0`. -/
theorem kept_arg0 (V : Valuation τ sig (Elt F)) : after ops V (Proc.devRef .tc main_arg0) = V (Proc.devRef .tc main_arg0) :=
  kept V main_arg0
    (by simp only [pre, List.Forall, nullary_writes, unary_writes, binary_writes, ternary_writes, reshape_writes, Finset.mem_singleton]
        repeat' apply And.intro
        all_goals exact devRef_ne_of_ne (by decide))
    (by simp only [shared, List.Forall, nullary_writes, unary_writes, binary_writes, ternary_writes, reshape_writes, Finset.mem_singleton]
        repeat' apply And.intro
        all_goals exact devRef_ne_of_ne (by decide))

/-- No line writes `main_arg1`. -/
theorem kept_arg1 (V : Valuation τ sig (Elt F)) : after ops V (Proc.devRef .tc main_arg1) = V (Proc.devRef .tc main_arg1) :=
  kept V main_arg1
    (by simp only [pre, List.Forall, nullary_writes, unary_writes, binary_writes, ternary_writes, reshape_writes, Finset.mem_singleton]
        repeat' apply And.intro
        all_goals exact devRef_ne_of_ne (by decide))
    (by simp only [shared, List.Forall, nullary_writes, unary_writes, binary_writes, ternary_writes, reshape_writes, Finset.mem_singleton]
        repeat' apply And.intro
        all_goals exact devRef_ne_of_ne (by decide))

/-- No line writes `main_arg2`. -/
theorem kept_arg2 (V : Valuation τ sig (Elt F)) : after ops V (Proc.devRef .tc main_arg2) = V (Proc.devRef .tc main_arg2) :=
  kept V main_arg2
    (by simp only [pre, List.Forall, nullary_writes, unary_writes, binary_writes, ternary_writes, reshape_writes, Finset.mem_singleton]
        repeat' apply And.intro
        all_goals exact devRef_ne_of_ne (by decide))
    (by simp only [shared, List.Forall, nullary_writes, unary_writes, binary_writes, ternary_writes, reshape_writes, Finset.mem_singleton]
        repeat' apply And.intro
        all_goals exact devRef_ne_of_ne (by decide))

/-- No line writes `main_arg3`. -/
theorem kept_arg3 (V : Valuation τ sig (Elt F)) : after ops V (Proc.devRef .tc main_arg3) = V (Proc.devRef .tc main_arg3) :=
  kept V main_arg3
    (by simp only [pre, List.Forall, nullary_writes, unary_writes, binary_writes, ternary_writes, reshape_writes, Finset.mem_singleton]
        repeat' apply And.intro
        all_goals exact devRef_ne_of_ne (by decide))
    (by simp only [shared, List.Forall, nullary_writes, unary_writes, binary_writes, ternary_writes, reshape_writes, Finset.mem_singleton]
        repeat' apply And.intro
        all_goals exact devRef_ne_of_ne (by decide))

/-- The frame: @main runs to the end, nothing faults, and the four argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_arg0).trans (kept_arg0 _), (h c main_arg1).trans (kept_arg1 _),
      (h c main_arg2).trans (kept_arg2 _), (h c main_arg3).trans (kept_arg3 _)⟩) (run m ρ)

end Cert.ReferenceIdeal.Host

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibColumns.lean ====
/-
  Columns of a matrix, read at an index.

  A matrix [a, b] is cut into columns [a, 1] by unit-width slices, a column is flattened to a vector [a], and
  columns are joined side by side into a matrix again; one axis up, slabs [a, 1, c] are stacked along the middle
  axis into [a, b, c]. Each lemma reads one of these steps at an index given by its coordinates, for any extents
  and any element type: flattening a column keeps its rows, a unit-width slice at offset o is column o, and the
  piece of a side-by-side join of unit-width pieces that holds coordinate q of the joined axis is piece q.
-/
import Idealize.ShloMosaic.Lib.Pipeline.Value
import Idealize.ShloMosaic.Lib.ValueIdx

noncomputable section

namespace Cert.Lib.Columns

open Idealize.ShloMosaic Idealize.ShloMosaic.ValueIdx

variable {α : Type}

/-- A column flattened [a, 1] → [a]: element p of the vector is row p of the column. -/
theorem colAsVec_apply {a : Nat} (col : (⟨2, ![a, 1]⟩ : Shape).Idx → α)
    (h : (⟨2, ![a, 1]⟩ : Shape).ShapeCasts ⟨1, ![a]⟩) (p : Fin a) :
    shapeCast ⟨1, ![a]⟩ col h (ix1 p) = col (ix2 p (0 : Fin 1)) := by
  refine shapeCast_apply col h (ix1 p) (ix2 p (0 : Fin 1)) ?_
  rw [Shape.rowMajor_val_one, Shape.rowMajor_val_two]
  show p.val * 1 + 0 = p.val
  omega

/-- The unit-width slice of a matrix [a, b] at column offset o: row p of it is entry (p, o) of the matrix. -/
theorem sliceCol_apply {a b : Nat} (o : Nat) (X : (⟨2, ![a, b]⟩ : Shape).Idx → α)
    (h : (⟨2, ![a, b]⟩ : Shape).Slices ![0, o] ⟨2, ![a, 1]⟩) (p : Fin a) (q : Fin b) (hq : q.val = o) :
    extractStridedSlice ⟨2, ![a, 1]⟩ ![0, o] X h (ix2 p (0 : Fin 1)) = X (ix2 p q) :=
  extractStridedSlice_apply _ _ _ _ _ (fun ax => by
    match ax with
    | ⟨0, _⟩ => exact (Nat.zero_add _).symm
    | ⟨1, _⟩ => show q.val = o + 0; omega)

/-- Column o of a matrix as a vector: element p is entry (p, o). -/
theorem colVec_apply {a b : Nat} (o : Nat) (X : (⟨2, ![a, b]⟩ : Shape).Idx → α)
    (h : (⟨2, ![a, b]⟩ : Shape).Slices ![0, o] ⟨2, ![a, 1]⟩)
    (hc : (⟨2, ![a, 1]⟩ : Shape).ShapeCasts ⟨1, ![a]⟩) (p : Fin a) (q : Fin b) (hq : q.val = o) :
    shapeCast ⟨1, ![a]⟩ (extractStridedSlice ⟨2, ![a, 1]⟩ ![0, o] X h) hc (ix1 p) = X (ix2 p q) :=
  (colAsVec_apply _ hc p).trans (sliceCol_apply o X h p q hq)

/-- Columns joined side by side into a matrix [a, b]: entry (p, q) is row p of the piece at position q, when every
    piece before it has width one (the widths before position q sum to q). -/
theorem joinCols_apply {a b : Nat} (xs : List ((s : Shape) × (s.Idx → α)))
    (h : Shape.Concatenates (xs.map (·.1)) ⟨2, ![a, b]⟩ (1 : Fin 2)) (p : Fin a) (q : Fin b)
    (hk : q.val < xs.length) (col : (⟨2, ![a, 1]⟩ : Shape).Idx → α) (hxk : xs[q.val] = ⟨⟨2, ![a, 1]⟩, col⟩)
    (hpre : (((xs.take q.val).map (·.1)).map fun s =>
      if h : s.rank = (⟨2, ![a, b]⟩ : Shape).rank then s.size ((1 : Fin 2).cast h.symm) else 0).sum = q.val) :
    concatenate ⟨2, ![a, b]⟩ (1 : Fin 2) xs h (ix2 p q) = col (ix2 p (0 : Fin 1)) :=
  concatenate_apply_piece (1 : Fin 2) xs h (ix2 p q) q.val hk ⟨2, ![a, 1]⟩ col hxk rfl q.val hpre (ix2 p (0 : Fin 1))
    (fun d hd => match d with
      | ⟨0, _⟩ => rfl
      | ⟨1, _⟩ => absurd (Fin.ext rfl) hd)
    (by show q.val + 0 = q.val; omega)

/-- Slabs [a, 1, c] stacked along the middle axis into [a, b, c]: entry (p, q, r) is entry (p, 0, r) of the piece at
    position q, when every piece before it has thickness one. -/
theorem joinSlabs_apply {a b c : Nat} (xs : List ((s : Shape) × (s.Idx → α)))
    (h : Shape.Concatenates (xs.map (·.1)) ⟨3, ![a, b, c]⟩ (1 : Fin 3)) (p : Fin a) (q : Fin b) (r : Fin c)
    (hk : q.val < xs.length) (slab : (⟨3, ![a, 1, c]⟩ : Shape).Idx → α) (hxk : xs[q.val] = ⟨⟨3, ![a, 1, c]⟩, slab⟩)
    (hpre : (((xs.take q.val).map (·.1)).map fun s =>
      if h : s.rank = (⟨3, ![a, b, c]⟩ : Shape).rank then s.size ((1 : Fin 3).cast h.symm) else 0).sum = q.val) :
    concatenate ⟨3, ![a, b, c]⟩ (1 : Fin 3) xs h (ix3 p q r) = slab (ix3 p (0 : Fin 1) r) :=
  concatenate_apply_piece (1 : Fin 3) xs h (ix3 p q r) q.val hk ⟨3, ![a, 1, c]⟩ slab hxk rfl q.val hpre
    (ix3 p (0 : Fin 1) r)
    (fun d hd => match d with
      | ⟨0, _⟩ => rfl
      | ⟨1, _⟩ => absurd (Fin.ext rfl) hd
      | ⟨2, _⟩ => rfl)
    (by show q.val + 0 = q.val; omega)

end Cert.Lib.Columns

end
-- ==== Proof.Spec.lean ====
/-
  The node projection and the attention scores as index formulas on the extended reals, for any number of rows M:
    proj x w (p, n)    = Σ_{k < 256} x(p, k) · w(k, n)                 (the projected features, M × 128)
    score x w a (p, c) = Σ_{u < 128} proj x w (p, u) · a(u, c)         (the two scores per node, M × 2)
  and, for the attention VECTOR `v` of 256 entries whose halves are the two columns,
    scoreAt x w v o p  = Σ_{u < 128} proj x w (p, u) · v(o + u)        (o = 0: the target half; o = 128: the source half).
  Both sums are taken in this order and grouping by both programs, so joining them needs no law of the extended reals
  beyond rewriting equal terms: a row of a block is a row of the array, and column c of the 128 × 2 attention matrix
  is the half of the attention vector at offset 128 · c.
  Also here: a host `dot_general` of a plain [M, K] × [K, N] product read at an entry is the K-term sum.
-/
import proofs.«174853_j3221225472506_1_alg».proof.Proof.LibMatmulPlain
import proofs.«174853_j3221225472506_1_alg».proof.Proof.LibColumns
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx Cert.LibMatmulPlain

/-- An a × b matrix of extended reals. -/
abbrev Mat (a b : Nat) : Type := FVec Ideal ⟨2, ![a, b]⟩ .f32

/-- The projected features. -/
def proj {M : Nat} (x : Mat M 256) (w : Mat 256 128) : Mat M 128 :=
  fun j => ∑ k : Fin 256, x (ix2 (j 0 : Fin M) k) * w (ix2 k (j 1 : Fin 128))

/-- The two attention scores per row, against a 128 × 2 attention matrix. -/
def score {M : Nat} (x : Mat M 256) (w : Mat 256 128) (a : Mat 128 2) : Mat M 2 :=
  fun j => ∑ u : Fin 128, proj x w (ix2 (j 0 : Fin M) u) * a (ix2 u (j 1 : Fin 2))

/-- One attention score per row, against the half of the attention vector at offset `o`. -/
def scoreAt {M : Nat} (x : Mat M 256) (w : Mat 256 128) (v : Mat 256 1) (o : Nat) (ho : o + 128 ≤ 256) :
    FVec Ideal ⟨1, ![M]⟩ .f32 :=
  fun i => ∑ u : Fin 128, proj x w (ix2 (i 0 : Fin M) u) * v (ix2 (⟨o + u.val, by have := u.isLt; omega⟩ : Fin 256) (0 : Fin 1))

theorem proj_apply {M : Nat} (x : Mat M 256) (w : Mat 256 128) (p : Fin M) (n : Fin 128) :
    proj x w (ix2 p n) = ∑ k : Fin 256, x (ix2 p k) * w (ix2 k n) := rfl

theorem score_apply {M : Nat} (x : Mat M 256) (w : Mat 256 128) (a : Mat 128 2) (p : Fin M) (c : Fin 2) :
    score x w a (ix2 p c) = ∑ u : Fin 128, proj x w (ix2 p u) * a (ix2 u c) := rfl

theorem scoreAt_apply {M : Nat} (x : Mat M 256) (w : Mat 256 128) (v : Mat 256 1) (o : Nat) (ho : o + 128 ≤ 256) (p : Fin M) :
    scoreAt x w v o ho (ix1 p)
      = ∑ u : Fin 128, proj x w (ix2 p u) * v (ix2 (⟨o + u.val, by have := u.isLt; omega⟩ : Fin 256) (0 : Fin 1)) := rfl

/-- A row of the projection depends on that row of `x` only: rows that agree project alike. -/
theorem proj_row {M M' : Nat} (x : Mat M 256) (x' : Mat M' 256) (w w' : Mat 256 128) (p : Fin M) (p' : Fin M') (n : Fin 128)
    (hx : ∀ k, x (ix2 p k) = x' (ix2 p' k)) (hw : ∀ k, w (ix2 k n) = w' (ix2 k n)) :
    proj x w (ix2 p n) = proj x' w' (ix2 p' n) := by
  rw [proj_apply, proj_apply]
  exact Finset.sum_congr rfl fun k _ => by rw [hx k, hw k]

/-- The same for the scores. -/
theorem score_row {M M' : Nat} (x : Mat M 256) (x' : Mat M' 256) (w w' : Mat 256 128) (a a' : Mat 128 2)
    (p : Fin M) (p' : Fin M') (c : Fin 2)
    (hx : ∀ k, x (ix2 p k) = x' (ix2 p' k)) (hw : ∀ k n, w (ix2 k n) = w' (ix2 k n)) (ha : ∀ u, a (ix2 u c) = a' (ix2 u c)) :
    score x w a (ix2 p c) = score x' w' a' (ix2 p' c) := by
  rw [score_apply, score_apply]
  exact Finset.sum_congr rfl fun u _ => by rw [proj_row x x' w w' p p' u hx (fun k => hw k u), ha u]

/-- A score against column `c` of the attention matrix is the score against the half of the attention vector that the
    column holds. -/
theorem score_eq_scoreAt {M : Nat} (x : Mat M 256) (w : Mat 256 128) (a : Mat 128 2) (v : Mat 256 1) (c : Fin 2)
    (o : Nat) (ho : o + 128 ≤ 256)
    (ha : ∀ u : Fin 128, a (ix2 u c) = v (ix2 (⟨o + u.val, by have := u.isLt; omega⟩ : Fin 256) (0 : Fin 1))) (p : Fin M) :
    score x w a (ix2 p c) = scoreAt x w v o ho (ix1 p) := by
  rw [score_apply, scoreAt_apply]
  exact Finset.sum_congr rfl fun u _ => by rw [ha u]

variable {M K N : Nat} (wf : DotDims.WF ⟨2, ![M, K]⟩ ⟨2, ![K, N]⟩ ⟨2, ![M, N]⟩ [1] [0] [0] [1] [] [])

/-- Entry (p, n) of a host `dot_general` of a plain product: the K-term sum. -/
theorem hostProduct_apply {φ₁ φ₂ : FTy} (prec : Option ContractPrecision)
    (lhs : FVec Ideal ⟨2, ![M, K]⟩ φ₁) (rhs : FVec Ideal ⟨2, ![K, N]⟩ φ₂) (p : Fin M) (n : Fin N) :
    Host.dotGeneral (plainDims M K N wf) prec lhs rhs (ix2 p n) = ∑ k : Fin K, lhs (ix2 p k) * rhs (ix2 k n) := by
  show FloatOps.dotGeneral (plainDims M K N wf) prec .single lhs rhs (ix2 p n) = _
  rw [Ideal.dotGeneral_apply, ← Equiv.sum_comp (contrEquiv1 (plainDims M K N wf) K rfl rfl).symm]
  exact Finset.sum_congr rfl fun k _ => by rw [lhsIdx_eq wf p n k, rhsIdx_eq wf p n k]

end Cert.Spec

end
-- ==== Proof.ArraysKI.lean ====
/-
  The kernel's two result arrays after the run, as whole-array functions of what the region finds, on the extended
  reals. At a grid point the body's two stores are `proj` and `score` of the loaded blocks (the matrix unit's product
  into a zero accumulator is the plain sum; the changes of float format are the identity). Point `t` holds rows
  5000 t … 5000 t + 4999 of the node features and the whole projection and attention matrices, so what it writes back is
  block `t` of `proj` / `score` of the whole arrays: a row of either depends on that row of the features only. The ten
  blocks of 5000 rows cover the 50000 rows, so each result array ends as `proj` / `score` of the arrays the region found.
-/
import proofs.«174853_j3221225472506_1_alg».proof.Proof.RegionKI
import proofs.«174853_j3221225472506_1_alg».proof.Proof.Spec

set_option maxRecDepth 16384

noncomputable section

namespace Cert.KernelIdeal.Arrays

open Cert.KernelIdeal Cert.KernelIdeal.Gen Cert.KernelIdeal.Entry Cert.KernelIdeal.Body Cert.KernelIdeal.Region
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-! ## The body's two stores, on the extended reals -/

/-- The first store is the projection of the loaded block. -/
theorem pay1_eq (v0 : Vec Ideal S5000x256 .f32) (v2 : Vec Ideal S256x128 .f32) : k0_pay1 v0 v2 = Cert.Spec.proj v0 v2 := by
  funext j
  obtain ⟨p, n, rfl⟩ : ∃ (p : Fin 5000) (n : Fin 128), j = ix2 p n := ⟨j 0, j 1, eq_ix2 j⟩
  unfold k0_pay1
  exact Cert.LibMatmulPlain.matmul_zero_apply dot_S5000x256_S256x128_S5000x128_1_0_0_1_n_n_wf none _ _ p n

/-- The second store is the scores of the loaded block against the loaded attention matrix. -/
theorem pay2_eq (v0 : Vec Ideal S5000x256 .f32) (v2 : Vec Ideal S256x128 .f32) (v7 : Vec Ideal S128x2 .f32) :
    k0_pay2 v0 v2 v7 = Cert.Spec.score v0 v2 v7 := by
  funext j
  obtain ⟨p, c, rfl⟩ : ∃ (p : Fin 5000) (c : Fin 2), j = ix2 p c := ⟨j 0, j 1, eq_ix2 j⟩
  unfold k0_pay2
  refine (Cert.LibMatmulPlain.matmul_zero_apply dot_S5000x128_S128x2_S5000x2_1_0_0_1_n_n_wf none _ _ p c).trans ?_
  rw [Cert.Spec.score_apply]
  refine Finset.sum_congr rfl fun u _ => ?_
  show k0_pay1 v0 v2 (ix2 p u) * shapeCast S128x2 v7 shapeCasts_S128x2_S128x2 (ix2 u c) = Cert.Spec.proj v0 v2 (ix2 p u) * v7 (ix2 u c)
  rw [pay1_eq, shapeCast_self]

/-! ## The printed index maps, decided over the ten grid points -/

/-- The node features' block and the two results' blocks move together down the rows and stay in column block 0; the
    projection and attention matrices stay at block (0, 0); the row block is at most 9. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_4.index t (0 : Fin 2) = win0_3.index t (0 : Fin 2) ∧ win0_4.index t (1 : Fin 2) = 0
    ∧ win0_3.index t (0 : Fin 2) ≤ 9 :=
  (by decide +kernel : ∀ t : Fin grid0.N, _)

/-- Every row block is some point's. -/
theorem idx_onto : ∀ q0 : Fin 10, ∃ t : Fin cfg0.N, win0_3.index t (0 : Fin 2) = q0.val :=
  (by decide +kernel : ∀ q0 : Fin 10, ∃ t : Fin grid0.N, win0_3.index t (0 : Fin 2) = q0.val)

/-! ## The input blocks, read where the results' rows say -/

/-- Row `p` of the features' block at point `t` is row (row block) · 5000 + p of the array. -/
theorem blk0_row (c : Dev nD) (t : Fin cfg0.N) (p : Fin 5000) (P : Fin 50000) (hP : P.val = win0_3.index t (0 : Fin 2) * 5000 + p.val)
    (k : Fin 256) : iblk m c 0 t (ix2 p k) = V m c main_arg0 (ix2 P k) := by
  obtain ⟨e00, e01, e10, e11, e20, e21, e31, e40, e41, e3le⟩ := idx_facts t
  show V m c main_arg0 (((cfg0.win 0).blk t).view.emb (ix2 p k)) = V m c main_arg0 (ix2 P k)
  refine congrArg _ (funext fun a => Fin.ext ?_)
  match a with
  | ⟨0, _⟩ => show win0_0.index t (0 : Fin 2) * 5000 + 1 * p.val = P.val; omega
  | ⟨1, _⟩ => show win0_0.index t (1 : Fin 2) * 256 + 1 * k.val = k.val; omega

/-- The projection matrix's block at any point is the whole matrix. -/
theorem blk1_all (c : Dev nD) (t : Fin cfg0.N) (k : Fin 256) (n : Fin 128) : iblk m c 1 t (ix2 k n) = V m c main_arg2 (ix2 k n) := by
  obtain ⟨e00, e01, e10, e11, e20, e21, e31, e40, e41, e3le⟩ := idx_facts t
  show V m c main_arg2 (((cfg0.win 1).blk t).view.emb (ix2 k n)) = V m c main_arg2 (ix2 k n)
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * n.val = n.val; omega

/-- The attention matrix's block at any point is the whole matrix. -/
theorem blk2_all (c : Dev nD) (t : Fin cfg0.N) (u : Fin 128) (q : Fin 2) : iblk m c 2 t (ix2 u q) = V m c main_v5 (ix2 u q) := by
  obtain ⟨e00, e01, e10, e11, e20, e21, e31, e40, e41, e3le⟩ := idx_facts t
  show V m c main_v5 (((cfg0.win 2).blk t).view.emb (ix2 u q)) = V m c main_v5 (ix2 u q)
  refine congrArg _ (funext fun a => Fin.ext ?_)
  match a with
  | ⟨0, _⟩ => show win0_2.index t (0 : Fin 2) * 128 + 1 * u.val = u.val; omega
  | ⟨1, _⟩ => show win0_2.index t (1 : Fin 2) * 2 + 1 * q.val = q.val; omega

/-! ## What a point writes back -/

/-- Point `t` writes back block `t` of the projection of the arrays the region found. -/
theorem flushed3_eq (c : Dev nD) (t : Fin cfg0.N) :
    (dats m 0 c).flushed 3 t
      = ((cfg0.win 3).blk t).view.read (Elt Ideal) (Cert.Spec.proj (V m c main_arg0) (V m c main_arg2)) := by
  show (cfg0.win 3).cut (grid0.coords t) ((dats m 0 c).after 3 t) = _
  rw [after0_3]
  unfold projOut
  rw [View.canon_unit_zero hz]
  simp only [View.ld_unit_zero (S := S5000x256) hz, View.ld_unit_zero (S := S256x128) hz]
  rw [pay1_eq]
  obtain ⟨e00, e01, e10, e11, e20, e21, e31, e40, e41, e3le⟩ := idx_facts t
  funext j
  obtain ⟨p, n, rfl⟩ : ∃ (p : Fin 5000) (n : Fin 128), j = ix2 p n := ⟨j 0, j 1, eq_ix2 j⟩
  have hp := p.isLt
  have hidx : ((cfg0.win 3).blk t).view.emb (ix2 p n)
      = ix2 (⟨win0_3.index t (0 : Fin 2) * 5000 + p.val, by omega⟩ : Fin 50000) n := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * n.val = n.val; omega
  show Cert.Spec.proj (iblk m c 0 t) (iblk m c 1 t) (ix2 p n)
    = Cert.Spec.proj (V m c main_arg0) (V m c main_arg2) (((cfg0.win 3).blk t).view.emb (ix2 p n))
  rw [hidx]
  exact Cert.Spec.proj_row _ _ _ _ p _ n (fun k => blk0_row m c t p _ rfl k) (fun k => blk1_all m c t k n)

/-- Point `t` writes back block `t` of the scores of the arrays the region found. -/
theorem flushed4_eq (c : Dev nD) (t : Fin cfg0.N) :
    (dats m 0 c).flushed 4 t
      = ((cfg0.win 4).blk t).view.read (Elt Ideal) (Cert.Spec.score (V m c main_arg0) (V m c main_arg2) (V m c main_v5)) := by
  show (cfg0.win 4).cut (grid0.coords t) ((dats m 0 c).after 4 t) = _
  rw [after0_4]
  unfold scoreOut
  rw [View.canon_unit_zero hz]
  simp only [View.ld_unit_zero (S := S5000x256) hz, View.ld_unit_zero (S := S256x128) hz, View.ld_unit_zero (S := S128x2) hz]
  rw [pay2_eq]
  obtain ⟨e00, e01, e10, e11, e20, e21, e31, e40, e41, e3le⟩ := idx_facts t
  funext j
  obtain ⟨p, q, rfl⟩ : ∃ (p : Fin 5000) (q : Fin 2), j = ix2 p q := ⟨j 0, j 1, eq_ix2 j⟩
  have hp := p.isLt
  have hidx : ((cfg0.win 4).blk t).view.emb (ix2 p q)
      = ix2 (⟨win0_3.index t (0 : Fin 2) * 5000 + p.val, by omega⟩ : Fin 50000) q := by
    funext a; apply Fin.ext
    match a with
    | ⟨0, _⟩ => show win0_4.index t (0 : Fin 2) * 5000 + 1 * p.val = win0_3.index t (0 : Fin 2) * 5000 + p.val; omega
    | ⟨1, _⟩ => show win0_4.index t (1 : Fin 2) * 2 + 1 * q.val = q.val; omega
  show Cert.Spec.score (iblk m c 0 t) (iblk m c 1 t) (iblk m c 2 t) (ix2 p q)
    = Cert.Spec.score (V m c main_arg0) (V m c main_arg2) (V m c main_v5) (((cfg0.win 4).blk t).view.emb (ix2 p q))
  rw [hidx]
  exact Cert.Spec.score_row _ _ _ _ _ _ p _ q (fun k => blk0_row m c t p _ rfl k) (fun k n => blk1_all m c t k n)
    (fun u => blk2_all m c t u q)

/-! ## The ten blocks cover each result array -/

/-- An index of the first result array is in point `t`'s block iff each coordinate is in the block's range. -/
theorem mem_blk3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6_0).slice (win0_3.rect t)).set ↔ _
  rw [View.set_slice_whole, Rect.mem_set_unit]
  exact Iff.rfl

/-- The same for the second result array. -/
theorem mem_blk4 (t : Fin cfg0.N) (i : S50000x2.Idx) :
    i ∈ ((cfg0.win 4).blk t).view.set ↔ ∀ a : Fin 2, win0_4.index t a * S5000x2.size a ≤ (i a).val
      ∧ (i a).val < win0_4.index t a * S5000x2.size a + S5000x2.size a := by
  show i ∈ ((View.whole main_v6_1).slice (win0_4.rect t)).set ↔ _
  rw [View.set_slice_whole, Rect.mem_set_unit]
  exact Iff.rfl

/-- Row r of the first result array is in the block of the point whose row block is r / 5000. -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := ht
  obtain ⟨e00, e01, e10, e11, e20, e21, e31, e40, e41, e3le⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The same for the second result array. -/
theorem cover4 (i : S50000x2.Idx) : ∃ t : Fin cfg0.N, (cfg0.win 4).flush t = true ∧ i ∈ ((cfg0.win 4).blk t).view.set := by
  have hi0 : (i 0).val < 50000 := (i 0).isLt
  have hi1 : (i 1).val < 2 := (i 1).isLt
  obtain ⟨t, ht⟩ := idx_onto ⟨(i 0).val / 5000, by omega⟩
  have q0 : win0_3.index t (0 : Fin 2) = (i 0).val / 5000 := ht
  obtain ⟨e00, e01, e10, e11, e20, e21, e31, e40, e41, e3le⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 2 ≤ (i 1).val ∧ (i 1).val < win0_4.index t (1 : Fin 2) * 2 + 2; omega

/-! ## The two arrays after the run -/

/-- The first result array ends as the projection of the node features the region found. -/
theorem final3 (c : Dev nD) :
    (dats m 0 c).arrAt 3 cfg0.N = Cert.Spec.proj (V m c main_arg0) (V m c main_arg2) :=
  (dats m 0 c).arrAt_eq_of_cover 3 _ (fun t _ => flushed3_eq m c t) cover3

/-- The second result array ends as the scores of the node features against the attention matrix the region found. -/
theorem final4 (c : Dev nD) :
    (dats m 0 c).arrAt 4 cfg0.N = Cert.Spec.score (V m c main_arg0) (V m c main_arg2) (V m c main_v5) :=
  (dats m 0 c).arrAt_eq_of_cover 4 _ (fun t _ => flushed4_eq m c t) cover4

end Cert.KernelIdeal.Arrays

end
-- ==== Proof.TailKI.lean ====
/-
  The sixty-six host lines that both programs run after the node projection, as ONE function of what goes into them:
  the edge list's target column `tgt` and source column `src` (800000 words each), the per-node attention scores
  `atgt` and `asrc` (50000 each) and the projected node features `h` (50000 × 128).

  An index word is wrapped the numpy way (a negative word has the extent 50000 added). With `e` ranging over edges:
    z(e) = atgt[tgt e] + asrc[src e],   l(e) = z(e) if z(e) ≥ 0 else 0.2 · z(e),   s(e) = exp (min 2 (max (-2) l(e))),
    d(n) = Σ_{e : tgt e = n} s(e),      α(e) = s(e) / d[tgt e],      out(n, ·) = Σ_{e : tgt e = n} h[src e, ·] · α(e).
  The kernel's program reaches these lines with `atgt`, `asrc` cut out of its second result array as columns; the
  lemma here reads its seventy later lines (four cuts, then the sixty-six) at the result buffer as `tail`.
-/
import proofs.«174853_j3221225472506_1_alg».proof.Proof.EntryKI
import Idealize.ShloMosaic.Lib.StableHlo.Run

set_option maxRecDepth 16384

noncomputable section

namespace Cert.KernelIdeal.Tail

open Cert.KernelIdeal Cert.KernelIdeal.Gen Cert.KernelIdeal.Entry
open Idealize.ShloMosaic Idealize.ShloMosaic.TcCoe Idealize.SL.Sem Idealize.ShloMosaic.StableHlo

variable {F : FTy → Type} [FloatOps F]

/-- An index vector with negative words wrapped by the extent, as the one-column index matrix a gather takes. -/
def wrapIdx (i : (⟨S800000, .i32⟩ : BufTy).Contents (Elt F)) : (⟨S800000x1, .i32⟩ : BufTy).Contents (Elt F) :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The sum of the two gathered scores along the edges. -/
def edgeSum (tgt src : (⟨S800000, .i32⟩ : BufTy).Contents (Elt F)) (atgt asrc : (⟨S50000, .f32⟩ : BufTy).Contents (Elt F)) :
    (⟨S800000, .f32⟩ : BufTy).Contents (Elt F) :=
  addf (Host.gather gather_S50000_S800000x1_S800000_n_0_n_n_0_1_1 atgt (wrapIdx tgt))
    (Host.gather gather_S50000_S800000x1_S800000_n_0_n_n_0_1_1 asrc (wrapIdx src))

/-- The leaky rectifier with slope 0.2. -/
def leaky (z : (⟨S800000, .f32⟩ : BufTy).Contents (Elt F)) : (⟨S800000, .f32⟩ : BufTy).Contents (Elt F) :=
  select (cmpf .oge z (broadcastInDim S800000 ![] bcast_S_S800000 (constant S_ .f32 0x00000000#32))) z
    (mulf (broadcastInDim S800000 ![] bcast_S_S800000 (id (constant S_ .f32 0x3E4CCCCD#32))) z)

/-- The clip to [-2, 2]. -/
def clip (l : (⟨S800000, .f32⟩ : BufTy).Contents (Elt F)) : (⟨S800000, .f32⟩ : BufTy).Contents (Elt F) :=
  minimumf (broadcastInDim S800000 ![] bcast_S_S800000 (id (constant S_ .f32 0x40000000#32)))
    (maximumf (broadcastInDim S800000 ![] bcast_S_S800000 (id (constant S_ .f32 0xC0000000#32))) l)

/-- The unnormalised attention weight of each edge. -/
def weight (tgt src : (⟨S800000, .i32⟩ : BufTy).Contents (Elt F)) (atgt asrc : (⟨S50000, .f32⟩ : BufTy).Contents (Elt F)) :
    (⟨S800000, .f32⟩ : BufTy).Contents (Elt F) :=
  Host.exp (clip (leaky (edgeSum tgt src atgt asrc)))

/-- The normalised weight: each edge's weight over the sum of the weights of the edges with its target. -/
def attn (tgt : (⟨S800000, .i32⟩ : BufTy).Contents (Elt F)) (s : (⟨S800000, .f32⟩ : BufTy).Contents (Elt F)) :
    (⟨S800000, .f32⟩ : BufTy).Contents (Elt F) :=
  Host.divf s
    (Host.gather gather_S50000_S800000x1_S800000_n_0_n_n_0_1_1
      (Host.scatterAdd scatter_S50000_S800000x1_S800000_n_0_0_1
        (broadcastInDim S50000 ![] bcast_S_S50000 (constant S_ .f32 0x00000000#32))
        (broadcastInDim S800000x1 ![0] bcast_S800000_S800000x1_0 tgt) s)
      (wrapIdx tgt))

/-- The aggregation: per target node, the sum of its edges' source rows of `h` times the edges' normalised weights. -/
def aggregate (tgt src : (⟨S800000, .i32⟩ : BufTy).Contents (Elt F)) (h : (⟨S50000x128, .f32⟩ : BufTy).Contents (Elt F))
    (α : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 tgt)
    (mulf (Host.gather gather_S50000x128_S800000x1_S800000x128_1_0_n_n_0_1_1128 h (wrapIdx src))
      (broadcastInDim S800000x128 ![0, 1] bcast_S800000x1_S800000x128_0_1
        (broadcastInDim S800000x1 ![0] bcast_S800000_S800000x1_0 α)))

/-- The sixty-six shared lines as one function. -/
def tail (tgt src : (⟨S800000, .i32⟩ : BufTy).Contents (Elt F)) (atgt asrc : (⟨S50000, .f32⟩ : BufTy).Contents (Elt F))
    (h : (⟨S50000x128, .f32⟩ : BufTy).Contents (Elt F)) : (⟨S50000x128, .f32⟩ : BufTy).Contents (Elt F) :=
  aggregate tgt src h (attn tgt (weight tgt src atgt asrc))

/-- Column `o` of a 50000 × 2 matrix as a vector of 50000 (the slice, then the reshape, as @main writes them). -/
def column0 (ac : (⟨S50000x2, .f32⟩ : BufTy).Contents (Elt F)) : (⟨S50000, .f32⟩ : BufTy).Contents (Elt F) :=
  shapeCast S50000 (extractStridedSlice S50000x1 ![0, 0] ac slices_S50000x2_S50000x1_0_0) shapeCasts_S50000x1_S50000
def column1 (ac : (⟨S50000x2, .f32⟩ : BufTy).Contents (Elt F)) : (⟨S50000, .f32⟩ : BufTy).Contents (Elt F) :=
  shapeCast S50000 (extractStridedSlice S50000x1 ![0, 1] ac slices_S50000x2_S50000x1_0_1) shapeCasts_S50000x1_S50000

-- the operations whose bodies are folds and searches over the operands' elements stay folded while the two sides are compared
attribute [local irreducible] Host.gather Host.scatterAdd Host.exp Host.divf in
set_option maxHeartbeats 4000000 in
/-- The kernel's program's seventy later lines, read at the result buffer, are `tail` of the edge columns, the two
    columns of the second result array and the first result array, as those lines find them. -/
theorem later_result (W : Valuation τ sig (Elt F)) :
    StableHlo.after (later (F := F)).flatten W (Proc.devRef .tc main_v52)
      = tail (W (Proc.devRef .tc main_v1)) (W (Proc.devRef .tc main_v3))
          (column0 (W (Proc.devRef .tc main_v6_1))) (column1 (W (Proc.devRef .tc main_v6_1))) (W (Proc.devRef .tc main_v6_0)) := by
  simp only [later, List.flatten_cons, List.flatten_nil, List.append_nil, hostOps1, hostOps1_1, hostOps1_2, hostOps1_3, hostOps1_4,
    List.cons_append, List.nil_append]
  after_results_simp
  rfl

end Cert.KernelIdeal.Tail

end
-- ==== Proof.InputsKI.lean ====
/-
  What the six host lines before the region compute, as functions of the argument arrays: the edge list's two columns
  as vectors of 800000 words (a unit-width slice, then the reshape that drops the unit axis), and the attention vector
  of 256 entries laid out as a 128 × 2 matrix (reshaped to 2 × 128, then transposed), whose column 0 is the vector's
  first half and column 1 its second half. And the region's entry contents at those buffers.
-/
import proofs.«174853_j3221225472506_1_alg».proof.Proof.EntryKI
import Idealize.ShloMosaic.Lib.StableHlo.Run

set_option maxRecDepth 16384

noncomputable section

namespace Cert.KernelIdeal.Inputs

open Cert.KernelIdeal Cert.KernelIdeal.Gen Cert.KernelIdeal.Entry
open Idealize.ShloMosaic Idealize.ShloMosaic.TcCoe Idealize.SL.Sem Idealize.ShloMosaic.StableHlo

variable {F : FTy → Type} [FloatOps F]

/-- Column 0 of the edge list (the targets) as a vector. -/
def edgeCol0 (e : (⟨S800000x2, .i32⟩ : BufTy).Contents (Elt F)) : (⟨S800000, .i32⟩ : BufTy).Contents (Elt F) :=
  shapeCast S800000 (extractStridedSlice S800000x1 ![0, 0] e slices_S800000x2_S800000x1_0_0) shapeCasts_S800000x1_S800000
/-- Column 1 of the edge list (the sources) as a vector. -/
def edgeCol1 (e : (⟨S800000x2, .i32⟩ : BufTy).Contents (Elt F)) : (⟨S800000, .i32⟩ : BufTy).Contents (Elt F) :=
  shapeCast S800000 (extractStridedSlice S800000x1 ![0, 1] e slices_S800000x2_S800000x1_0_1) shapeCasts_S800000x1_S800000
/-- The attention vector as a 128 × 2 matrix. -/
def attnMat (a : (⟨S256x1, .f32⟩ : BufTy).Contents (Elt F)) : (⟨S128x2, .f32⟩ : BufTy).Contents (Elt F) :=
  transpose S128x2 [1, 0] (shapeCast S2x128 a shapeCasts_S256x1_S2x128) transposes_S2x128_S128x2_1_0

variable (m : (ℓ : Loc nD τ sig) → Buf (Elt F) ℓ)

/-- The region is entered with the targets' vector in `main_v1`. -/
theorem entry_v1 (c : Dev nD) : V m c main_v1 = edgeCol0 (m ((c : Thread nD τ).loc main_arg1)) := by
  show StableHlo.after (List.flatten [hostOps0]) (fun b => m (c, b)) (Proc.devRef .tc main_v1) = _
  simp only [hostOps0, List.flatten_cons, List.flatten_nil, List.append_nil]
  after_results
  rfl

/-- The region is entered with the sources' vector in `main_v3`. -/
theorem entry_v3 (c : Dev nD) : V m c main_v3 = edgeCol1 (m ((c : Thread nD τ).loc main_arg1)) := by
  show StableHlo.after (List.flatten [hostOps0]) (fun b => m (c, b)) (Proc.devRef .tc main_v3) = _
  simp only [hostOps0, List.flatten_cons, List.flatten_nil, List.append_nil]
  after_results
  rfl

/-- The region is entered with the attention matrix in `main_v5`. -/
theorem entry_v5 (c : Dev nD) : V m c main_v5 = attnMat (m ((c : Thread nD τ).loc main_arg3)) := by
  show StableHlo.after (List.flatten [hostOps0]) (fun b => m (c, b)) (Proc.devRef .tc main_v5) = _
  simp only [hostOps0, List.flatten_cons, List.flatten_nil, List.append_nil]
  after_results
  rfl

end Cert.KernelIdeal.Inputs

end
-- ==== Proof.TailRef.lean ====
/-
  The reference's seventy-seven host lines, read at the result buffer, as the shared function `tail` of: the edge
  list's two columns; the reference's own projected features `x · w` (one host product); and its two score vectors,
  each the host product of the projected features with one half of the attention vector (a 128 × 1 slice), flattened.
-/
import proofs.«174853_j3221225472506_1_alg».proof.Proof.RefRun
import proofs.«174853_j3221225472506_1_alg».proof.Proof.TailKI
import proofs.«174853_j3221225472506_1_alg».proof.Proof.InputsKI

set_option maxRecDepth 16384

noncomputable section

namespace Cert.ReferenceIdeal.Tail

open Cert.ReferenceIdeal Cert.ReferenceIdeal.Gen Cert.ReferenceIdeal.Host
open Idealize.ShloMosaic Idealize.ShloMosaic.TcCoe Idealize.SL.Sem Idealize.ShloMosaic.StableHlo

variable {F : FTy → Type} [FloatOps F]

/-- The reference's projected features: one host product. -/
def hRef (x : (⟨S50000x256, .f32⟩ : BufTy).Contents (Elt F)) (w : (⟨S256x128, .f32⟩ : BufTy).Contents (Elt F)) :
    (⟨S50000x128, .f32⟩ : BufTy).Contents (Elt F) :=
  Host.dotGeneral dot_S50000x256_S256x128_S50000x128_1_0_0_1_n_n none x w

/-- The reference's target scores: the projected features times the attention vector's first half, as a vector. -/
def atgtRef (x : (⟨S50000x256, .f32⟩ : BufTy).Contents (Elt F)) (w : (⟨S256x128, .f32⟩ : BufTy).Contents (Elt F))
    (v : (⟨S256x1, .f32⟩ : BufTy).Contents (Elt F)) : (⟨S50000, .f32⟩ : BufTy).Contents (Elt F) :=
  shapeCast S50000 (Host.dotGeneral dot_S50000x128_S128x1_S50000x1_1_0_0_1_n_n none (hRef x w)
    (extractStridedSlice S128x1 ![0, 0] v slices_S256x1_S128x1_0_0)) shapeCasts_S50000x1_S50000

/-- The reference's source scores: the same against the attention vector's second half. -/
def asrcRef (x : (⟨S50000x256, .f32⟩ : BufTy).Contents (Elt F)) (w : (⟨S256x128, .f32⟩ : BufTy).Contents (Elt F))
    (v : (⟨S256x1, .f32⟩ : BufTy).Contents (Elt F)) : (⟨S50000, .f32⟩ : BufTy).Contents (Elt F) :=
  shapeCast S50000 (Host.dotGeneral dot_S50000x128_S128x1_S50000x1_1_0_0_1_n_n none (hRef x w)
    (extractStridedSlice S128x1 ![128, 0] v slices_S256x1_S128x1_128_0)) shapeCasts_S50000x1_S50000

-- the operations whose bodies are folds and searches over the operands' elements stay folded while the two sides are compared
attribute [local irreducible] Host.gather Host.scatterAdd Host.exp Host.divf in
set_option maxHeartbeats 4000000 in
/-- The reference's lines, read at the result buffer. -/
theorem result (V : Valuation τ sig (Elt F)) :
    after ops V (Proc.devRef .tc main_v52)
      = Cert.KernelIdeal.Tail.tail (Cert.KernelIdeal.Inputs.edgeCol0 (V (Proc.devRef .tc main_arg1)))
          (Cert.KernelIdeal.Inputs.edgeCol1 (V (Proc.devRef .tc main_arg1)))
          (atgtRef (V (Proc.devRef .tc main_arg0)) (V (Proc.devRef .tc main_arg2)) (V (Proc.devRef .tc main_arg3)))
          (asrcRef (V (Proc.devRef .tc main_arg0)) (V (Proc.devRef .tc main_arg2)) (V (Proc.devRef .tc main_arg3)))
          (hRef (V (Proc.devRef .tc main_arg0)) (V (Proc.devRef .tc main_arg2))) := by
  simp only [ops, pre, shared, List.cons_append, List.nil_append]
  after_results_simp
  rfl

end Cert.ReferenceIdeal.Tail

end
-- ==== Proof.Scores.lean ====
/-
  The three values that go into the shared lines are the same in the two programs, on the extended reals.
  The projected features: the reference's one host product is `proj`. The score vectors: the kernel's program cuts
  column c out of `score x w A`, where A is the attention vector `v` reshaped to 2 × 128 and transposed, so that
  A(u, c) = v(128 c + u); the reference multiplies the projected features by the 128 × 1 slice of `v` at offset 128 c
  and flattens the resulting column. Both are Σ_u proj x w (p, u) · v(128 c + u), the same terms in the same order.
-/
import proofs.«174853_j3221225472506_1_alg».proof.Proof.Spec
import proofs.«174853_j3221225472506_1_alg».proof.Proof.TailKI
import proofs.«174853_j3221225472506_1_alg».proof.Proof.InputsKI
import proofs.«174853_j3221225472506_1_alg».proof.Proof.TailRef

set_option maxRecDepth 16384

noncomputable section

namespace Cert.Scores

open Idealize.ShloMosaic Idealize.ShloMosaic.ValueIdx Cert.Spec

/-- Entry (u, c) of the attention matrix is entry 128 c + u of the attention vector. -/
theorem attnMat_apply (v : Mat 256 1) (u : Fin 128) (c : Fin 2) (r : Fin 256) (hr : r.val = 128 * c.val + u.val) :
    Cert.KernelIdeal.Inputs.attnMat (F := Ideal) v (ix2 u c) = v (ix2 r (0 : Fin 1)) := by
  unfold Cert.KernelIdeal.Inputs.attnMat
  refine (transpose_apply [1, 0] _ _ (ix2 u c) (ix2 c u) (fun b => match b with | ⟨0, _⟩ => rfl | ⟨1, _⟩ => rfl)).trans ?_
  refine shapeCast_apply v _ (ix2 c u) (ix2 r (0 : Fin 1)) ?_
  rw [Shape.rowMajor_val_two, Shape.rowMajor_val_two]
  show r.val * 1 + 0 = c.val * 128 + u.val
  omega

/-- Row u of the 128 × 1 slice of the attention vector at row offset o is entry o + u of the vector. -/
theorem half_apply (o : Nat) (v : Mat 256 1) (h : (⟨2, ![256, 1]⟩ : Shape).Slices ![o, 0] ⟨2, ![128, 1]⟩) (u : Fin 128) (r : Fin 256)
    (hr : r.val = o + u.val) :
    extractStridedSlice ⟨2, ![128, 1]⟩ ![o, 0] v h (ix2 u (0 : Fin 1)) = v (ix2 r (0 : Fin 1)) :=
  extractStridedSlice_apply _ _ _ _ _ (fun a => by
    match a with
    | ⟨0, _⟩ => exact hr
    | ⟨1, _⟩ => rfl)

/-- The reference's projected features are `proj`. -/
theorem hRef_eq (x : Mat 50000 256) (w : Mat 256 128) : Cert.ReferenceIdeal.Tail.hRef (F := Ideal) x w = proj x w := by
  funext j
  obtain ⟨p, n, rfl⟩ : ∃ (p : Fin 50000) (n : Fin 128), j = ix2 p n := ⟨j 0, j 1, eq_ix2 j⟩
  unfold Cert.ReferenceIdeal.Tail.hRef
  exact hostProduct_apply Cert.ReferenceIdeal.Gen.dot_S50000x256_S256x128_S50000x128_1_0_0_1_n_n_wf none x w p n

/-- The kernel's program's target scores (column 0 of its second result array) are the scores against the first half. -/
theorem column0_eq (x : Mat 50000 256) (w : Mat 256 128) (v : Mat 256 1) :
    Cert.KernelIdeal.Tail.column0 (F := Ideal) (score x w (Cert.KernelIdeal.Inputs.attnMat (F := Ideal) v)) = scoreAt x w v 0 (by omega) := by
  funext i
  obtain ⟨p, rfl⟩ : ∃ p : Fin 50000, i = ix1 p := ⟨i 0, eq_ix1 i⟩
  unfold Cert.KernelIdeal.Tail.column0
  refine (Cert.Lib.Columns.colVec_apply 0 _ _ _ p (0 : Fin 2) rfl).trans ?_
  exact score_eq_scoreAt x w _ v (0 : Fin 2) 0 (by omega) (fun u => attnMat_apply v u 0 _ (by show 0 + u.val = 128 * 0 + u.val; omega)) p

/-- Its source scores (column 1) are the scores against the second half. -/
theorem column1_eq (x : Mat 50000 256) (w : Mat 256 128) (v : Mat 256 1) :
    Cert.KernelIdeal.Tail.column1 (F := Ideal) (score x w (Cert.KernelIdeal.Inputs.attnMat (F := Ideal) v)) = scoreAt x w v 128 (by omega) := by
  funext i
  obtain ⟨p, rfl⟩ : ∃ p : Fin 50000, i = ix1 p := ⟨i 0, eq_ix1 i⟩
  unfold Cert.KernelIdeal.Tail.column1
  refine (Cert.Lib.Columns.colVec_apply 1 _ _ _ p (1 : Fin 2) rfl).trans ?_
  exact score_eq_scoreAt x w _ v (1 : Fin 2) 128 (by omega) (fun u => attnMat_apply v u 1 _ (by show 128 + u.val = 128 * 1 + u.val; omega)) p

/-- The reference's target scores are the scores against the first half. -/
theorem atgtRef_eq (x : Mat 50000 256) (w : Mat 256 128) (v : Mat 256 1) :
    Cert.ReferenceIdeal.Tail.atgtRef (F := Ideal) x w v = scoreAt x w v 0 (by omega) := by
  funext i
  obtain ⟨p, rfl⟩ : ∃ p : Fin 50000, i = ix1 p := ⟨i 0, eq_ix1 i⟩
  unfold Cert.ReferenceIdeal.Tail.atgtRef
  refine (Cert.Lib.Columns.colAsVec_apply _ _ p).trans ?_
  refine (hostProduct_apply Cert.ReferenceIdeal.Gen.dot_S50000x128_S128x1_S50000x1_1_0_0_1_n_n_wf none _ _ p (0 : Fin 1)).trans ?_
  rw [scoreAt_apply]
  refine Finset.sum_congr rfl fun u _ => ?_
  rw [hRef_eq, half_apply 0 v _ u ⟨0 + u.val, by have := u.isLt; omega⟩ rfl]

/-- The reference's source scores are the scores against the second half. -/
theorem asrcRef_eq (x : Mat 50000 256) (w : Mat 256 128) (v : Mat 256 1) :
    Cert.ReferenceIdeal.Tail.asrcRef (F := Ideal) x w v = scoreAt x w v 128 (by omega) := by
  funext i
  obtain ⟨p, rfl⟩ : ∃ p : Fin 50000, i = ix1 p := ⟨i 0, eq_ix1 i⟩
  unfold Cert.ReferenceIdeal.Tail.asrcRef
  refine (Cert.Lib.Columns.colAsVec_apply _ _ p).trans ?_
  refine (hostProduct_apply Cert.ReferenceIdeal.Gen.dot_S50000x128_S128x1_S50000x1_1_0_0_1_n_n_wf none _ _ p (0 : Fin 1)).trans ?_
  rw [scoreAt_apply]
  refine Finset.sum_congr rfl fun u _ => ?_
  rw [hRef_eq, half_apply 128 v _ u ⟨128 + u.val, by have := u.isLt; omega⟩ rfl]

/-- So the shared lines are applied to the same five values in the two programs. -/
theorem tail_eq (tgt src : (⟨Cert.KernelIdeal.S800000, .i32⟩ : BufTy).Contents (Elt Ideal)) (x : Mat 50000 256) (w : Mat 256 128) (v : Mat 256 1) :
    Cert.KernelIdeal.Tail.tail (F := Ideal) tgt src (Cert.ReferenceIdeal.Tail.atgtRef (F := Ideal) x w v) (Cert.ReferenceIdeal.Tail.asrcRef (F := Ideal) x w v) (Cert.ReferenceIdeal.Tail.hRef (F := Ideal) x w)
      = Cert.KernelIdeal.Tail.tail (F := Ideal) tgt src (Cert.KernelIdeal.Tail.column0 (F := Ideal) (score x w (Cert.KernelIdeal.Inputs.attnMat (F := Ideal) v)))
          (Cert.KernelIdeal.Tail.column1 (F := Ideal) (score x w (Cert.KernelIdeal.Inputs.attnMat (F := Ideal) v))) (proj x w) := by
  rw [atgtRef_eq, asrcRef_eq, hRef_eq, column0_eq, column1_eq]

end Cert.Scores

end
-- ==== Proof.Values.lean ====
/-
  The two runs, each read at its result buffer as the shared lines applied to values of the argument arrays.
  The kernel's program: its seventy later lines run from the region's exit, where the edge columns are as the earlier
  lines left them and the two result arrays are `proj` and `score` of the arguments; so its result is `tail` of the
  edge columns, the two columns of `score`, and `proj`. The reference: its lines, folded over the launch contents, are
  `tail` of the edge columns, its two flattened host products and its host product; by the comparison of those values
  that is the same term once the two programs' arguments agree.
-/
import proofs.«174853_j3221225472506_1_alg».proof.Proof.ArraysKI
import proofs.«174853_j3221225472506_1_alg».proof.Proof.Scores

set_option maxRecDepth 16384

noncomputable section

namespace Cert.Values

open Idealize.ShloMosaic Idealize.ShloMosaic.TcCoe Idealize.SL.Sem

/-! ## The kernel's program -/

section Kernel

open Cert.KernelIdeal Cert.KernelIdeal.Gen Cert.KernelIdeal.Entry Cert.KernelIdeal.Region Cert.KernelIdeal.Arrays
  Cert.KernelIdeal.Tail Cert.KernelIdeal.Inputs

variable (m : (ℓ : Loc nD τ sig) → Buf (Elt Ideal) ℓ) (ρ : Dev nD → PrngReg)

/-- The kernel's program's result, as a function of its argument arrays. -/
def out (c : Dev nD) : Buf (Elt Ideal) ((c.tc : Thread nD τ).loc main_v52) :=
  tail (F := Ideal) (edgeCol0 (m ((c : Thread nD τ).loc main_arg1))) (edgeCol1 (m ((c : Thread nD τ).loc main_arg1)))
    (column0 (Cert.Spec.score (m ((c : Thread nD τ).loc main_arg0)) (m ((c : Thread nD τ).loc main_arg2)) (attnMat (m ((c : Thread nD τ).loc main_arg3)))))
    (column1 (Cert.Spec.score (m ((c : Thread nD τ).loc main_arg0)) (m ((c : Thread nD τ).loc main_arg2)) (attnMat (m ((c : Thread nD τ).loc main_arg3)))))
    (Cert.Spec.proj (m ((c : Thread nD τ).loc main_arg0)) (m ((c : Thread nD τ).loc main_arg2)))

/-- The later lines find the edge columns as the earlier lines left them and the two result arrays at `proj` and
    `score` of the arguments, so what they leave in the result buffer is `out`. -/
theorem later_out (c : Dev nD) :
    Pipeline.afterTail₀ cfgs (dats m) 0 (V0 m) later c main_v52 = out m c := by
  have key : ∀ (W : Valuation τ sig (Elt Ideal)) (A1 A3 : (⟨S800000, .i32⟩ : BufTy).Contents (Elt Ideal))
      (H : (⟨S50000x128, .f32⟩ : BufTy).Contents (Elt Ideal)) (AC : (⟨S50000x2, .f32⟩ : BufTy).Contents (Elt Ideal)),
      W (Proc.devRef .tc main_v1) = A1 → W (Proc.devRef .tc main_v3) = A3 → W (Proc.devRef .tc main_v6_0) = H →
      W (Proc.devRef .tc main_v6_1) = AC →
      StableHlo.after (later (F := Ideal)).flatten W (Proc.devRef .tc main_v52) = tail A1 A3 (column0 AC) (column1 AC) H := by
    intro W A1 A3 H AC e1 e3 e60 e61
    rw [later_result, e1, e3, e60, e61]
  refine key _ _ _ _ _ ?_ ?_ ?_ ?_
  · exact (Pipeline.withArrays_of_ne _ c (V0 m c) _ main_v1 (by exact (by decide : ∀ w, Pipeline.arrRef spec0 w ≠ main_v1))).trans
      (entry_v1 m c)
  · exact (Pipeline.withArrays_of_ne _ c (V0 m c) _ main_v3 (by exact (by decide : ∀ w, Pipeline.arrRef spec0 w ≠ main_v3))).trans
      (entry_v3 m c)
  · refine (Pipeline.withArrays_arr spec0 launch0.win.arr_inj c _ _ 3).trans ((final3 m c).trans ?_)
    rw [V_main_arg0, V_main_arg2]
  · refine (Pipeline.withArrays_arr spec0 launch0.win.arr_inj c _ _ 4).trans ((final4 m c).trans ?_)
    rw [V_main_arg0, V_main_arg2, entry_v5]

/-- Every weakly fair execution of the kernel's program terminates with its result buffer at `out` and its four
    argument arrays as launched. -/
theorem run : θ_run defs (onTc (τ := τ) (main (F := Ideal))) ⟨m, fun _ => 0, ρ⟩ (fun r => ∀ c : Dev nD,
      r.2.mem ((c.tc : Thread nD τ).loc main_v52) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v52 (Pipeline.mem_restRefs_of main_v52 (by decide) (by decide))).trans (later_out m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Kernel

/-! ## The reference -/

section Reference

open Cert.ReferenceIdeal Cert.ReferenceIdeal.Gen Cert.ReferenceIdeal.Host

variable (m' : (ℓ : Loc nD τ sig) → Buf (Elt Ideal) ℓ) (ρ' : Dev nD → PrngReg)

/-- The reference's result, as the shared lines applied to the same five values of ITS argument arrays. -/
def refOut (c : Dev nD) : Buf (Elt Ideal) ((c.tc : Thread nD τ).loc main_v52) :=
  Cert.KernelIdeal.Tail.tail (F := Ideal) (Cert.KernelIdeal.Inputs.edgeCol0 (m' ((c : Thread nD τ).loc main_arg1)))
    (Cert.KernelIdeal.Inputs.edgeCol1 (m' ((c : Thread nD τ).loc main_arg1)))
    (Cert.KernelIdeal.Tail.column0 (Cert.Spec.score (m' ((c : Thread nD τ).loc main_arg0)) (m' ((c : Thread nD τ).loc main_arg2))
      (Cert.KernelIdeal.Inputs.attnMat (m' ((c : Thread nD τ).loc main_arg3)))))
    (Cert.KernelIdeal.Tail.column1 (Cert.Spec.score (m' ((c : Thread nD τ).loc main_arg0)) (m' ((c : Thread nD τ).loc main_arg2))
      (Cert.KernelIdeal.Inputs.attnMat (m' ((c : Thread nD τ).loc main_arg3)))))
    (Cert.Spec.proj (m' ((c : Thread nD τ).loc main_arg0)) (m' ((c : Thread nD τ).loc main_arg2)))

/-- Every weakly fair execution of the reference terminates with its result buffer at `refOut` and its four argument
    arrays as launched. -/
theorem refRun : θ_run defs (onTc (τ := τ) (main (F := Ideal))) ⟨m', fun _ => 0, ρ'⟩ (fun r => ∀ c : Dev nD,
      r.2.mem ((c.tc : Thread nD τ).loc main_v52) = refOut m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun _ h c =>
    ⟨(h c main_v52).trans ((Cert.ReferenceIdeal.Tail.result _).trans (Cert.Scores.tail_eq _ _ _ _ _)),
      (h c main_arg0).trans (kept_arg0 _), (h c main_arg1).trans (kept_arg1 _),
      (h c main_arg2).trans (kept_arg2 _), (h c main_arg3).trans (kept_arg3 _)⟩) (Host.run m' ρ')

end Reference

end Cert.Values

end
-- ==== Proof.lean ====
/- Graph attention over 50000 nodes and 800000 edges: the kernel's program against its jnp reference, on the extended reals.

   Both programs project the node features, h = x · w (50000 × 256 by 256 × 128), form two scores per node against the
   two halves of a 256-entry attention vector v, atgt(n) = Σ_u h(n, u) · v(u) and asrc(n) = Σ_u h(n, u) · v(128 + u), and then
   run the same sixty-six host lines: per edge e = (tgt, src) the sum atgt[tgt] + asrc[src] through the leaky rectifier of
   slope 0.2, clipped to [-2, 2] and exponentiated; the weights summed per target node; each weight divided by its
   target's sum; and per target node the sum of its edges' source rows of h times those normalised weights.

   They differ only before those lines. The reference takes h and the two score vectors as three host products. The
   kernel's program takes h and BOTH scores in one pallas_call over ten blocks of 5000 rows: at a block the body stores
   x_blk · w and (x_blk · w) · A, where A is v laid out as a 128 × 2 matrix (A(u, c) = v(128 c + u)), and the two score
   vectors are the two columns of the second result. On the extended reals the matrix unit's product into a zero
   accumulator and the host's product are the same finite sums, taken in the same order and grouping (h first, then its
   product with the attention entries), a row of either result depends on that row of x only, and the ten blocks cover
   the rows; so the five values handed to the shared lines are equal term by term and no law of the extended reals that
   could fail at an infinity is used. The precondition (finite inputs) is therefore never opened.

   The frames: each program runs to the end without a fault and leaves its four argument arrays as launched, because no
   host line writes an argument, the two staged arguments are input windows that are never written back, and the body
   stores into its two result buffers only. The ideal pass rewrote nothing, so `preserves` is `True`. -/
import proofs.«174853_j3221225472506_1_alg».proof.Defs
import proofs.«174853_j3221225472506_1_alg».proof.Proof.Gen.Kernel
import proofs.«174853_j3221225472506_1_alg».proof.Proof.Gen.Kernel.Skeleton
import proofs.«174853_j3221225472506_1_alg».proof.Proof.Gen.Kernel.Launch
import proofs.«174853_j3221225472506_1_alg».proof.Proof.Gen.Kernel.Points
import proofs.«174853_j3221225472506_1_alg».proof.Proof.Gen.KernelIdeal
import proofs.«174853_j3221225472506_1_alg».proof.Proof.Gen.KernelIdeal.Skeleton
import proofs.«174853_j3221225472506_1_alg».proof.Proof.Gen.KernelIdeal.Launch
import proofs.«174853_j3221225472506_1_alg».proof.Proof.Gen.KernelIdeal.Points
import proofs.«174853_j3221225472506_1_alg».proof.Proof.Gen.ReferenceIdeal
import proofs.«174853_j3221225472506_1_alg».proof.Proof.Gen.Pre_finite_inputs
import proofs.«174853_j3221225472506_1_alg».proof.Proof.RegionK
import proofs.«174853_j3221225472506_1_alg».proof.Proof.RegionKI
import proofs.«174853_j3221225472506_1_alg».proof.Proof.RefRun
import proofs.«174853_j3221225472506_1_alg».proof.Proof.Values
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Region.frame m ρ

/-- So does its idealization. -/
theorem frame_ki : Cert.frame_KernelIdeal := fun m ρ _ => Cert.KernelIdeal.Region.frame m ρ

/-- So does the reference: seventy-seven host lines, none of which writes an argument. -/
theorem frame_ri : Cert.frame_ReferenceIdeal := fun m ρ _ => Cert.ReferenceIdeal.Host.frame m ρ

/-- The ideal pass rewrote no operation. -/
theorem preserves : Cert.preserves_Kernel_KernelIdeal := trivial

/-- From memories that agree on the four arguments the two programs end with equal results: each result is the shared
    lines applied to the same five values of the arguments. -/
theorem algebraic : Cert.algebraic_KernelIdeal_ReferenceIdeal := by
  intro m ρ m' ρ' _ hagree
  refine ⟨Cert.Values.out m, Cert.Values.run m ρ, ?_⟩
  refine (θ_run Cert.ReferenceIdeal.defs _ _).mono (fun _ h c => ⟨(h c).1.trans ?_, (h c).2⟩) (Cert.Values.refRun m' ρ')
  unfold Cert.Values.refOut Cert.Values.out
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
